-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S64x768 : Shape := ⟨2, ![64, 768]⟩
abbrev S128x128 : Shape := ⟨2, ![128, 128]⟩
abbrev S128 : Shape := ⟨1, ![128]⟩
abbrev S768x128 : Shape := ⟨2, ![768, 128]⟩
abbrev S256x128 : Shape := ⟨2, ![256, 128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S768x128 : S_.BroadcastsInDim S768x128 (![] : Fin 0 → Fin S768x128.rank)
  reducesTo_S768x128_S_d0_1 : S768x128.ReducesTo [0, 1] S_
  bcast_S_S256x128 : S_.BroadcastsInDim S256x128 (![] : Fin 0 → Fin S256x128.rank)
  reducesTo_S256x128_S_d0_1 : S256x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x32 .f32) (main_arg15 : FVec F S32 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x32 .f32 := Host.absf main_arg14
  let main_cst_22 : FVec F S_ .f32 := constant S_ .f32 0x7F800000#32
  let main_v60 : FVec F S128x32 .f32 := broadcastInDim S128x32 ![] bcast_S_S128x32 main_cst_22
  let main_v61 : IVec S128x32 1 := cmpf .olt main_v59 main_v60
  let main_c_23 : IVec S_ 1 := constantI S_ 1 1#1
  let main_v62 : IVec S_ 1 := (fun x v => Host.reduce IntOp.andi x v reducesTo_S128x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S128 .f32) (main_arg10 : FVec F S768x128 .f32) (main_arg11 : FVec F S128 .f32) (main_arg12 : FVec F S256x128 .f32) (main_arg13 : FVec F S128 .f32) (main_arg14 : FVec F S128x32 .f32) (main_arg15 : FVec F S32 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S768x128 .f32 := Host.absf main_arg10
  let main_cst_14 : FVec F S_ .f32 := constant S_ .f32 0x7F800000#32
  let main_v40 : FVec F S768x128 .f32 := broadcastInDim S768x128 ![] bcast_S_S768x128 main_cst_14
  let main_v41 : IVec S768x128 1 := cmpf .olt main_v39 main_v40
  let main_c_15 : IVec S_ 1 := constantI S_ 1 1#1
  let main_v42 : IVec S_ 1 := (fun x v => Host.reduce IntOp.andi x v reducesTo_S768x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S768x128 .f32) (main_arg11 : FVec F S128 .f32) (main_arg12 : FVec F S256x128 .f32) (main_arg13 : FVec F S128 .f32) (main_arg14 : FVec F S128x32 .f32) (main_arg15 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S64x768 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S768x128 .f32) (main_arg11 : FVec F S128 .f32) (main_arg12 : FVec F S256x128 .f32) (main_arg13 : FVec F S128 .f32) (main_arg14 : FVec F S128x32 .f32) (main_arg15 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x768 .f32 := Host.absf main_arg3
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S64x768 : Shape := ⟨2, ![64, 768]⟩
abbrev S128x128 : Shape := ⟨2, ![128, 128]⟩
abbrev S128 : Shape := ⟨1, ![128]⟩
abbrev S768x128 : Shape := ⟨2, ![768, 128]⟩
abbrev S256x128 : Shape := ⟨2, ![256, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x32 : Shape := ⟨2, ![1, 32]⟩
abbrev S5000x128 : Shape := ⟨2, ![5000, 128]⟩
abbrev S850000x128 : Shape := ⟨2, ![850000, 128]⟩
abbrev S64x128 : Shape := ⟨2, ![64, 128]⟩
abbrev S50000x1 : Shape := ⟨2, ![50000, 1]⟩
abbrev S50000x32 : Shape := ⟨2, ![50000, 32]⟩
abbrev S5000x32 : Shape := ⟨2, ![5000, 32]⟩

abbrev nBuf : Space → Nat
  | .hbm => 134
  | .vmem => 35
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S64x768, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S768x128, .f32⟩
  | 11 => ⟨S128, .f32⟩
  | 12 => ⟨S256x128, .f32⟩
  | 13 => ⟨S128, .f32⟩
  | 14 => ⟨S128x32, .f32⟩
  | 15 => ⟨S32, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S128x128, .bf16⟩
  | 57 => ⟨S128x128, .bf16⟩
  | 58 => ⟨S128x128, .bf16⟩
  | 59 => ⟨S768x128, .bf16⟩
  | 60 => ⟨S128x128, .f32⟩
  | 61 => ⟨S128x128, .bf16⟩
  | 62 => ⟨S128x128, .f32⟩
  | 63 => ⟨S128x128, .bf16⟩
  | 64 => ⟨S128x32, .bf16⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S1x32, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S50000x128, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x128, .f32⟩
  | 98 => ⟨S850000x1, .f32⟩
  | 99 => ⟨S850000x128, .f32⟩
  | 100 => ⟨S850000x128, .f32⟩
  | 101 => ⟨S_, .f32⟩
  | 102 => ⟨S50000x128, .f32⟩
  | 103 => ⟨S850000x1, .i32⟩
  | 104 => ⟨S50000x128, .f32⟩
  | 105 => ⟨S50000x128, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S850000x1, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S64x128, .f32⟩
  | 123 => ⟨S64x128, .f32⟩
  | 124 => ⟨S_, .i32⟩
  | 125 => ⟨S50000, .i32⟩
  | 126 => ⟨S50000, .i1⟩
  | 127 => ⟨S_, .i32⟩
  | _ => ⟨S50000x128, .f32⟩

abbrev hbmTy0_1 (i : Nat) : BufTy := match i % 128 with
  | 0 => ⟨S50000, .i32⟩
  | 1 => ⟨S50000, .i32⟩
  | 2 => ⟨S50000, .i32⟩
  | 3 => ⟨S50000x1, .i32⟩
  | 4 => ⟨S50000x128, .f32⟩
  | 5 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .bf16⟩
  | .local _ .vmem, ⟨15, _⟩ => ⟨S5000x128, .f32⟩
  | .local _ .vmem, ⟨16, _⟩ => ⟨S5000x128, .f32⟩
  | .local _ .vmem, ⟨17, _⟩ => ⟨S64x768, .f32⟩
  | .local _ .vmem, ⟨18, _⟩ => ⟨S768x128, .bf16⟩
  | .local _ .vmem, ⟨19, _⟩ => ⟨S64x128, .f32⟩
  | .local _ .vmem, ⟨20, _⟩ => ⟨S64x128, .f32⟩
  | .local _ .vmem, ⟨21, _⟩ => ⟨S1x128, .f32⟩
  | .local _ .vmem, ⟨22, _⟩ => ⟨S64x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S128x128, .bf16⟩
  | .local _ .vmem, ⟨29, _⟩ => ⟨S128x128, .bf16⟩
  | .local _ .vmem, ⟨30, _⟩ => ⟨S1x128, .f32⟩
  | .local _ .vmem, ⟨31, _⟩ => ⟨S128x32, .bf16⟩
  | .local _ .vmem, ⟨32, _⟩ => ⟨S1x32, .f32⟩
  | .local _ .vmem, ⟨33, _⟩ => ⟨S5000x32, .f32⟩
  | .local _ .vmem, ⟨34, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_6 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_9 : Ref sig .tc := ⟨.hbm, 89, rfl⟩
abbrev main_v60 : Ref sig .tc := ⟨.hbm, 90, rfl⟩
abbrev main_v61 : Ref sig .tc := ⟨.hbm, 91, rfl⟩
abbrev main_c_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_12 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_15 : Ref sig .tc := ⟨.hbm, 124, rfl⟩
abbrev main_v89 : Ref sig .tc := ⟨.hbm, 125, rfl⟩
abbrev main_v90 : Ref sig .tc := ⟨.hbm, 126, rfl⟩
abbrev main_c_16 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc5_stg3_0 : Ref sig .tc := ⟨.vmem, 28, rfl⟩
abbrev cc5_stg4_0 : Ref sig .tc := ⟨.vmem, 29, rfl⟩
abbrev cc5_stg5_0 : Ref sig .tc := ⟨.vmem, 30, rfl⟩
abbrev cc5_stg6_0 : Ref sig .tc := ⟨.vmem, 31, rfl⟩
abbrev cc5_stg7_0 : Ref sig .tc := ⟨.vmem, 32, rfl⟩
abbrev cc5_stg8_0 : Ref sig .tc := ⟨.vmem, 33, rfl⟩
abbrev cc5_stg8_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc4_sem0_0 : DmaSem sig := 20
abbrev cc4_sem1_0 : DmaSem sig := 21
abbrev cc4_sem2_0 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc5_sem3_0 : DmaSem sig := 28
abbrev cc5_sem4_0 : DmaSem sig := 29
abbrev cc5_sem5_0 : DmaSem sig := 30
abbrev cc5_sem6_0 : DmaSem sig := 31
abbrev cc5_sem7_0 : DmaSem sig := 32
abbrev cc5_sem8_0 : DmaSem sig := 33
abbrev cc5_sem8_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x768 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S768x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x32 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x32 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  slices_S256x128_S128x128_0_0 : S256x128.Slices ![0, 0] S128x128
  slices_S256x128_S128x128_128_0 : S256x128.Slices ![128, 0] S128x128
  shapeCasts_S128_S1x128 : S128.ShapeCasts S1x128
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x768_S64x768_0_0 : ∀ a, (![0, 0] : Fin 2 → Nat) a + S64x768.size a ≤ S64x768.size a
  h_S64x768 : 0 < S64x768.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  bcast_S50000_S50000x1_0 : S50000.BroadcastsInDim S50000x1 (![0] : Fin 1 → Fin S50000x1.rank)
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S64x768_S768x128_S64x128_1_0_0_1_n_n_wf : DotDims.WF S64x768 S768x128 S64x128 [1] [0] [0] [1] [] []
  gather_S64x128_S50000x1_S50000x128_1_0_n_n_0_1_1128_wf : GatherDims.WF S64x128 S50000x1 S50000x128 [1] [0] [] [0] [] 1 ![1, 128]
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x768.size a ≤ S64x768.size a
  hwx3_0 : ∀ i : grid3.Coords, EltTy.bits .f32 = 32 ∨ (Rect.block (s := S64x768) S64x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x128.size a ≤ S768x128.size a
  hwx3_1 : ∀ i : grid3.Coords, EltTy.bits .bf16 = 32 ∨ (Rect.block (s := S768x128) S768x128.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .bf16 = 32 ∨ (Rect.block (s := S128x128) S128x128.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x32.size a ≤ S128x32.size a
  hwx5_6 : ∀ i : grid5.Coords, EltTy.bits .bf16 = 32 ∨ (Rect.block (s := S128x32) S128x32.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x32.size a ≤ S1x32.size a
  hwx5_7 : ∀ i : grid5.Coords, EltTy.bits .f32 = 32 ∨ (Rect.block (s := S1x32) S1x32.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x32.size a ≤ S50000x32.size a
  hwx5_8 : ∀ i : grid5.Coords, EltTy.bits .f32 = 32 ∨ (Rect.block (s := S50000x32) S5000x32.size (cc5_transform_8 i) (hinb5_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S64x768_S768x128_S64x128_1_0_0_1_n_n : DotDims S64x768 S768x128 S64x128 where
  lhsContracting := [1]
  rhsContracting := [0]
  lhsNonContracting := [0]
  rhsNonContracting := [1]
  lhsBatch := []
  rhsBatch := []
  wf := dot_S64x768_S768x128_S64x128_1_0_0_1_n_n_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S64x768.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v33) S768x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S64x128.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S64x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v42) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S64x128.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v86) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v35) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v37) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v38) S128x32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v44) S1x32.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v96) S5000x32.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S64x768 : Shape := ⟨2, ![64, 768]⟩
abbrev S128x128 : Shape := ⟨2, ![128, 128]⟩
abbrev S128 : Shape := ⟨1, ![128]⟩
abbrev S768x128 : Shape := ⟨2, ![768, 128]⟩
abbrev S256x128 : Shape := ⟨2, ![256, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S50000x256 : Shape := ⟨2, ![50000, 256]⟩
abbrev S50000x32 : Shape := ⟨2, ![50000, 32]⟩
abbrev S1x32 : Shape := ⟨2, ![1, 32]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S64x768, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S768x128, .f32⟩
  | 11 => ⟨S128, .f32⟩
  | 12 => ⟨S256x128, .f32⟩
  | 13 => ⟨S128, .f32⟩
  | 14 => ⟨S128x32, .f32⟩
  | 15 => ⟨S32, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x128, .f32⟩
  | 112 => ⟨S850000x1, .f32⟩
  | 113 => ⟨S850000x128, .f32⟩
  | 114 => ⟨S850000x128, .f32⟩
  | 115 => ⟨S_, .f32⟩
  | 116 => ⟨S50000x128, .f32⟩
  | 117 => ⟨S850000x1, .i32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S64x128, .f32⟩
  | 126 => ⟨S1x128, .f32⟩
  | 127 => ⟨S64x128, .f32⟩
  | _ => ⟨S50000x128, .f32⟩

abbrev hbmTy0_1 (i : Nat) : BufTy := match i % 128 with
  | 0 => ⟨S64x128, .f32⟩
  | 1 => ⟨S_, .f32⟩
  | 2 => ⟨S64x128, .f32⟩
  | 3 => ⟨S64x128, .f32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x128, .f32⟩
  | 13 => ⟨S50000x256, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x32, .f32⟩
  | 22 => ⟨S1x32, .f32⟩
  | 23 => ⟨S50000x32, .f32⟩
  | 24 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call2_cst : Ref sig .tc := ⟨.hbm, 99, rfl⟩
abbrev main_call2_v0 : Ref sig .tc := ⟨.hbm, 100, rfl⟩
abbrev main_v65 : Ref sig .tc := ⟨.hbm, 101, rfl⟩
abbrev main_v66 : Ref sig .tc := ⟨.hbm, 102, rfl⟩
abbrev main_c_12 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call3_cst : Ref sig .tc := ⟨.hbm, 122, rfl⟩
abbrev main_call3_v0 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call4_cst : Ref sig .tc := ⟨.hbm, 129, rfl⟩
abbrev main_call4_v0 : Ref sig .tc := ⟨.hbm, 130, rfl⟩
abbrev main_v88 : Ref sig .tc := ⟨.hbm, 131, rfl⟩
abbrev main_c_15 : Ref sig .tc := ⟨.hbm, 132, rfl⟩
abbrev main_v89 : Ref sig .tc := ⟨.hbm, 133, rfl⟩
abbrev main_v90 : Ref sig .tc := ⟨.hbm, 134, rfl⟩
abbrev main_c_16 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call5_cst : Ref sig .tc := ⟨.hbm, 146, rfl⟩
abbrev main_call5_v0 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S64x768_S768x128_S64x128_1_0_0_1_n_n_wf : DotDims.WF S64x768 S768x128 S64x128 [1] [0] [0] [1] [] []
  gather_S64x128_S50000x1_S50000x128_1_0_n_n_0_1_1128_wf : GatherDims.WF S64x128 S50000x1 S50000x128 [1] [0] [] [0] [] 1 ![1, 128]
  dot_S50000x256_S256x128_S50000x128_1_0_0_1_n_n_wf : DotDims.WF S50000x256 S256x128 S50000x128 [1] [0] [0] [1] [] []
  dot_S50000x128_S128x32_S50000x32_1_0_0_1_n_n_wf : DotDims.WF S50000x128 S128x32 S50000x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S64x768_S768x128_S64x128_1_0_0_1_n_n : DotDims S64x768 S768x128 S64x128 where
  lhsContracting := [1]
  rhsContracting := [0]
  lhsNonContracting := [0]
  rhsNonContracting := [1]
  lhsBatch := []
  rhsBatch := []
  wf := dot_S64x768_S768x128_S64x128_1_0_0_1_n_n_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.RunResult.lean ====
/-
  The whole program's run, read at its result: every weakly fair execution from any memory terminates, faults nowhere,
  leaves the sixteen argument tables as launched, and leaves the result table holding what the last boundary of the fold
  through the program holds there (`W13 … main_v96`: the contents after the sixth region's write-backs).  The fold's
  value at that table is computed in the modules that import this one.
-/
import proofs.«144733_j57853209477141_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the thirteen segments from the launch: the result table ends at the last boundary's contents, the
    arguments end as launched. -/
theorem run_result : θ_run defs (onTc (τ := τ) (main (F := F))) ⟨m, fun _ => 0, ρ⟩ (fun r => ∀ c : Dev nD,
      r.2.mem ((c.tc : Thread nD τ).loc main_v96) = W13 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v96 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.KernelIdeal.Whole

end
-- ==== Proof.Keep.lean ====
/-
  What the segments of the program leave alone.  A stretch of host operations changes only the tables its operations
  write (listed below, stretch by stretch); a region changes only the tables its windows are laid over.  So a table
  computed before the first region — the edge tables, the normalisation, the weight tables in their block format, the
  bias vectors as one-row tables — still holds the same contents when a later segment reads it.
-/
import proofs.«144733_j57853209477141_2_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The tables the first gather/scatter stretch writes. -/
abbrev written1 : List (Ref sig .tc) :=
  [main_c_6, main_v46, main_v47, main_c_7, main_v48, main_v49, main_v50, main_v51, main_v52, main_v53, main_v54, main_v55,
   main_cst_8, main_v56, main_v57, main_v58]
/-- The tables the second gather/scatter stretch writes. -/
abbrev written2 : List (Ref sig .tc) :=
  [main_c_9, main_v60, main_v61, main_c_10, main_v62, main_v63, main_v64, main_v65, main_v66, main_v67, main_v68, main_v69,
   main_cst_11, main_v70, main_v71, main_v72]
/-- The tables the third gather/scatter stretch writes. -/
abbrev written3 : List (Ref sig .tc) :=
  [main_c_12, main_v74, main_v75, main_c_13, main_v76, main_v77, main_v78, main_v79, main_v80, main_v81, main_v82, main_v83,
   main_cst_14, main_v84, main_v85, main_v86]
/-- The tables the question-row gather stretch writes. -/
abbrev written5 : List (Ref sig .tc) :=
  [main_c_15, main_v89, main_v90, main_c_16, main_v91, main_v92, main_v93, main_v94, main_v95]

theorem written1_sub : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes,
    Finset.singleton_subset_iff, List.mem_toFinset]
  repeat' apply And.intro
  all_goals exact List.mem_map_of_mem (by decide)
theorem written2_sub : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes,
    Finset.singleton_subset_iff, List.mem_toFinset]
  repeat' apply And.intro
  all_goals exact List.mem_map_of_mem (by decide)
theorem written3_sub : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes,
    Finset.singleton_subset_iff, List.mem_toFinset]
  repeat' apply And.intro
  all_goals exact List.mem_map_of_mem (by decide)
theorem written5_sub : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes,
    Finset.singleton_subset_iff, List.mem_toFinset]
  repeat' apply And.intro
  all_goals exact List.mem_map_of_mem (by decide)

/-! ## A table no segment since the first region's entry touches -/

theorem keep4 (r : Ref sig .tc) (h4 : ∀ w, Pipeline.arrRef spec0 w ≠ r) :
    W4 m ρ c (Proc.devRef .tc r) = W3 m ρ c (Proc.devRef .tc r) := W4_of_ne m ρ c r h4

theorem keep5 (r : Ref sig .tc) (h4 : ∀ w, Pipeline.arrRef spec0 w ≠ r) (h5 : r ∉ written1) :
    W5 m ρ c (Proc.devRef .tc r) = W3 m ρ c (Proc.devRef .tc r) :=
  (StableHlo.after_of_writes_sub hostOps1 _ written1_sub h5).trans (keep4 m ρ c r h4)

theorem keep6 (r : Ref sig .tc) (h4 : ∀ w, Pipeline.arrRef spec0 w ≠ r) (h5 : r ∉ written1) (h6 : ∀ w, Pipeline.arrRef spec1 w ≠ r) :
    W6 m ρ c (Proc.devRef .tc r) = W3 m ρ c (Proc.devRef .tc r) :=
  (W6_of_ne m ρ c r h6).trans (keep5 m ρ c r h4 h5)

theorem keep7 (r : Ref sig .tc) (h4 : ∀ w, Pipeline.arrRef spec0 w ≠ r) (h5 : r ∉ written1) (h6 : ∀ w, Pipeline.arrRef spec1 w ≠ r)
    (h7 : r ∉ written2) :
    W7 m ρ c (Proc.devRef .tc r) = W3 m ρ c (Proc.devRef .tc r) :=
  (StableHlo.after_of_writes_sub hostOps2 _ written2_sub h7).trans (keep6 m ρ c r h4 h5 h6)

theorem keep8 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) :
    W8 m ρ c (Proc.devRef .tc r) = W3 m ρ c (Proc.devRef .tc r) :=
  (W8_of_ne m ρ c r h8).trans (keep7 m ρ c r h4 h5 h6 h7)

theorem keep9 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : r ∉ written3) :
    W9 m ρ c (Proc.devRef .tc r) = W3 m ρ c (Proc.devRef .tc r) :=
  (StableHlo.after_of_writes_sub hostOps3 _ written3_sub h9).trans (keep8 m ρ c r h4 h5 h6 h7 h8)

theorem keep10 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : r ∉ written3) (h10 : ∀ w, Pipeline.arrRef spec3 w ≠ r) :
    W10 m ρ c (Proc.devRef .tc r) = W3 m ρ c (Proc.devRef .tc r) :=
  (W10_of_ne m ρ c r h10).trans (keep9 m ρ c r h4 h5 h6 h7 h8 h9)

theorem keep11 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : r ∉ written3) (h10 : ∀ w, Pipeline.arrRef spec3 w ≠ r)
    (h11 : ∀ w, Pipeline.arrRef spec4 w ≠ r) :
    W11 m ρ c (Proc.devRef .tc r) = W3 m ρ c (Proc.devRef .tc r) :=
  (W11_of_ne m ρ c r h11).trans (keep10 m ρ c r h4 h5 h6 h7 h8 h9 h10)

theorem keep12 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : r ∉ written3) (h10 : ∀ w, Pipeline.arrRef spec3 w ≠ r)
    (h11 : ∀ w, Pipeline.arrRef spec4 w ≠ r) (h12 : r ∉ written5) :
    W12 m ρ c (Proc.devRef .tc r) = W3 m ρ c (Proc.devRef .tc r) :=
  (StableHlo.after_of_writes_sub hostOps5 _ written5_sub h12).trans (keep11 m ρ c r h4 h5 h6 h7 h8 h9 h10 h11)

/-- The last aggregated table, written by the third gather/scatter stretch, is still there when the tail reads it. -/
theorem keep9to12 (r : Ref sig .tc) (h10 : ∀ w, Pipeline.arrRef spec3 w ≠ r) (h11 : ∀ w, Pipeline.arrRef spec4 w ≠ r) (h12 : r ∉ written5) :
    W12 m ρ c (Proc.devRef .tc r) = W9 m ρ c (Proc.devRef .tc r) :=
  (StableHlo.after_of_writes_sub hostOps5 _ written5_sub h12).trans ((W11_of_ne m ρ c r h11).trans (W10_of_ne m ρ c r h10))

/-! ## The stretches before the first region -/

/-- The tables the edge-list stretch writes. -/
abbrev written0 : List (Ref sig .tc) :=
  [main_v0, main_v1, main_v2, main_v3, main_v4, main_v5, main_v6, main_cst, main_v7, main_cst_0, main_v8, main_v9, main_v10,
   main_cst_1, main_v11, main_v12, main_v13, main_cst_2]
/-- The tables the outlined select writes. -/
abbrev written0_1 : List (Ref sig .tc) := [main_call0_v0, main_call0_v1, main_v14]
/-- The tables the stretch up to the first region writes. -/
abbrev written0_2 : List (Ref sig .tc) :=
  [main_c, main_v15, main_v16, main_c_3, main_v17, main_v18, main_v19, main_v20, main_v21, main_c_4, main_v22, main_v23, main_c_5,
   main_v24, main_v25, main_v26, main_v27, main_v28, main_v29, main_v30, main_v31, main_v32, main_v33, main_v34, main_v35, main_v36,
   main_v37, main_v38, main_v39, main_v40, main_v41, main_v42, main_v43, main_v44]

theorem written0_sub : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem written0_1_sub : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem written0_2_sub : (hostOps0_2 : List (HloOp τ sig (Elt F))).Forall fun op => op.writes ⊆ (written0_2.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keep1 (r : Ref sig .tc) (h : r ∉ written0) : W1 m ρ c (Proc.devRef .tc r) = m ((c : Thread nD τ).loc r) :=
  StableHlo.after_of_writes_sub hostOps0 _ written0_sub h
theorem keep2 (r : Ref sig .tc) (h : r ∉ written0_1) : W2 m ρ c (Proc.devRef .tc r) = W1 m ρ c (Proc.devRef .tc r) :=
  StableHlo.after_of_writes_sub hostOps0_1 _ written0_1_sub h
theorem keep3 (r : Ref sig .tc) (h : r ∉ written0_2) : W3 m ρ c (Proc.devRef .tc r) = W2 m ρ c (Proc.devRef .tc r) :=
  StableHlo.after_of_writes_sub hostOps0_2 _ written0_2_sub h

/-- A table no host operation before the first region writes (a launched argument) still holds what was launched. -/
theorem launched2 (r : Ref sig .tc) (h0 : r ∉ written0) (h1 : r ∉ written0_1) :
    W2 m ρ c (Proc.devRef .tc r) = m ((c : Thread nD τ).loc r) :=
  (keep2 m ρ c r h1).trans (keep1 m ρ c r h0)
theorem launched3 (r : Ref sig .tc) (h0 : r ∉ written0) (h1 : r ∉ written0_1) (h2 : r ∉ written0_2) :
    W3 m ρ c (Proc.devRef .tc r) = m ((c : Thread nD τ).loc r) :=
  (keep3 m ρ c r h2).trans (launched2 m ρ c r h0 h1)

/-- What the launch memory holds at a table is what the fold starts from there. -/
theorem at0 (r : Ref sig .tc) : W0 m ρ c (Proc.devRef .tc r) = m ((c : Thread nD τ).loc r) := rfl

end Cert.KernelIdeal.Whole

end
-- ==== Proof.Spec.lean ====
/-
  The mathematics of the claim, stated once over tables of extended reals and free of either program.

  A graph-convolution layer projects the node table by a weight table (a matrix product), gathers the projected rows
  along the edges, scales and sums them back per node, adds a bias row and clamps at zero.  The two programs differ
  only in how the dense pieces are written: one keeps each dense piece (matrix product; bias row plus clamp) as a
  whole-table operation, the other computes it block of rows by block of rows and fuses neighbouring pieces.  The
  functions below are those dense pieces as whole-table functions, entry by entry.
-/
import Idealize.ShloMosaic.PureOps.Ideal
import Idealize.ShloMosaic.PureOps.Ideal.Laws
import Idealize.ShloMosaic.Lib.ValueIdx

noncomputable section

namespace Cert.Hand

open Idealize.ShloMosaic Idealize.ShloMosaic.ValueIdx

/-- The shape of a table with `a` rows and `b` columns. -/
abbrev Sh (a b : Nat) : Shape := ⟨2, ![a, b]⟩

/-- A table of extended reals with `a` rows and `b` columns. -/
abbrev Tab (a b : Nat) : Type := (Sh a b).Idx → EReal

/-- The row of an index of an `a × b` table, as a number below `a`. -/
abbrev rowOf {a b : Nat} (i : (Sh a b).Idx) : Fin a := ⟨(i 0).val, (i 0).isLt⟩

/-- The column of an index of an `a × b` table, as a number below `b`. -/
abbrev colOf {a b : Nat} (i : (Sh a b).Idx) : Fin b := ⟨(i 1).val, (i 1).isLt⟩

/-- The matrix product: entry (r, c) of `x · w` is the sum over `q` of `x (r, q) · w (q, c)`. -/
def mm {a k b : Nat} (x : Tab a k) (w : Tab k b) : Tab a b :=
  fun i => ∑ q : Fin k, x (ix2 (rowOf i) q) * w (ix2 q (colOf i))

/-- One row `r` added to every row of a table. -/
def addRow {n d : Nat} (t : Tab n d) (r : Tab 1 d) : Tab n d :=
  fun i => t i + r (ix2 (0 : Fin 1) (colOf i))

/-- Every entry clamped below at zero. -/
def relu {n d : Nat} (t : Tab n d) : Tab n d :=
  fun i => max (t i) 0

/-- The dense tail of the network on a node table: the last layer's bias and clamp, the two halves of the fused
    projection (node half and question half) added, its bias and clamp, and the output projection with its bias. -/
def tail {n : Nat} (agg : Tab n 128) (b2 : Tab 1 128) (qe : Tab n 128) (wh wq : Tab 128 128) (b1 : Tab 1 128)
    (w2 : Tab 128 32) (bo : Tab 1 32) : Tab n 32 :=
  addRow (mm (relu (addRow (fun j => mm (relu (addRow agg b2)) wh j + mm qe wq j) b1)) w2) bo

/-! ## Blocks of rows

Every dense piece above is row-local: row `r` of its result depends on row `r` of its row-indexed operands only (and on
the whole of the weight tables and bias rows).  So a block of consecutive rows of the result is the same piece applied to
the same block of rows of the operands: this is what lets a program that walks the node table block by block compute the
whole-table function. -/

/-- Rows `off, off + 1, …, off + n - 1` of a table with `N` rows. -/
def rows {N d : Nat} (n off : Nat) (h : off + n ≤ N) (t : Tab N d) : Tab n d :=
  fun y => t (ix2 (⟨off + (rowOf y).val, by have := (rowOf y).isLt; omega⟩ : Fin N) (colOf y))

theorem rows_mm {N k d : Nat} (n off : Nat) (h : off + n ≤ N) (x : Tab N k) (w : Tab k d) :
    rows n off h (mm x w) = mm (rows n off h x) w := rfl

theorem rows_addRow {N d : Nat} (n off : Nat) (h : off + n ≤ N) (t : Tab N d) (r : Tab 1 d) :
    rows n off h (addRow t r) = addRow (rows n off h t) r := rfl

theorem rows_relu {N d : Nat} (n off : Nat) (h : off + n ≤ N) (t : Tab N d) :
    rows n off h (relu t) = relu (rows n off h t) := rfl

theorem rows_tail {N : Nat} (n off : Nat) (h : off + n ≤ N) (agg : Tab N 128) (b2 : Tab 1 128) (qe : Tab N 128)
    (wh wq : Tab 128 128) (b1 : Tab 1 128) (w2 : Tab 128 32) (bo : Tab 1 32) :
    rows n off h (tail agg b2 qe wh wq b1 w2 bo) = tail (rows n off h agg) b2 (rows n off h qe) wh wq b1 w2 bo := rfl

/-- A vector of `d` entries as a table of one row. -/
def oneRow {d : Nat} (v : (⟨1, ![d]⟩ : Shape).Idx → EReal) : Tab 1 d :=
  fun i => v (ix1 (colOf i))

end Cert.Hand

end
-- ==== Proof.LibMatProd.lean ====
/-
  General lemmas: the two printed forms of a matrix product (a block product accumulated into zeros; the host's
  `dot_general`) read at the extended reals are the table product `Cert.Hand.mm`, whenever the dimension numbers
  contract the left operand's columns with the right operand's rows; and a one-row table broadcast down the rows
  reads its row at the entry's column.
-/
import proofs.«144733_j57853209477141_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.Hand

open Idealize.ShloMosaic Idealize.ShloMosaic.ValueIdx

/-- A block matrix product accumulated into zeros, for dimension numbers that contract the left operand's columns with the
    right operand's rows (the four coordinate facts say exactly that), is the table product. -/
theorem matmul_eq_mm {a k b : Nat} (D : DotDims (Sh a k) (Sh k b) (Sh a b)) (hr : D.contr.rank = 1)
    (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    {φ₁ φ₂ : FTy} (l : FVec Ideal (Sh a k) φ₁) (r : FVec Ideal (Sh k b) φ₂) :
    matmul D none l r (constant (Sh a b) .f32 0x00000000#32) = mm (a := a) (k := k) (b := b) l r := by
  funext j
  refine (Ideal.matmul_constant_zero_apply D none l r j).trans ?_
  unfold mm
  rw [← Equiv.sum_comp (contrEquiv1 D k hr hs).symm]
  refine Finset.sum_congr rfl fun q _ => ?_
  have hq := contrEquiv1_symm_val D k hr hs q
  have el : D.lhsIdx j ((contrEquiv1 D k hr hs).symm q) = ix2 (rowOf j) q := funext fun x => Fin.ext (by
    match x with
    | ⟨0, _⟩ => exact hl0 _ _
    | ⟨1, _⟩ => exact (hl1 _ _).trans hq)
  have er : D.rhsIdx j ((contrEquiv1 D k hr hs).symm q) = ix2 q (colOf j) := funext fun x => Fin.ext (by
    match x with
    | ⟨0, _⟩ => exact (hr0 _ _).trans hq
    | ⟨1, _⟩ => exact hr1 _ _)
  rw [el, er]

/-- The host's `dot_general` with the same dimension numbers is the same table product. -/
theorem dotGeneral_eq_mm {a k b : Nat} (D : DotDims (Sh a k) (Sh k b) (Sh a b)) (hr : D.contr.rank = 1)
    (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    {φ₁ φ₂ : FTy} (l : FVec Ideal (Sh a k) φ₁) (r : FVec Ideal (Sh k b) φ₂) :
    Host.dotGeneral D none l r = mm (a := a) (k := k) (b := b) l r := by
  funext j
  simp only [Host.dotGeneral]
  rw [Ideal.dotGeneral_apply]
  unfold mm
  rw [← Equiv.sum_comp (contrEquiv1 D k hr hs).symm]
  refine Finset.sum_congr rfl fun q _ => ?_
  have hq := contrEquiv1_symm_val D k hr hs q
  have el : D.lhsIdx j ((contrEquiv1 D k hr hs).symm q) = ix2 (rowOf j) q := funext fun x => Fin.ext (by
    match x with
    | ⟨0, _⟩ => exact hl0 _ _
    | ⟨1, _⟩ => exact (hl1 _ _).trans hq)
  have er : D.rhsIdx j ((contrEquiv1 D k hr hs).symm q) = ix2 q (colOf j) := funext fun x => Fin.ext (by
    match x with
    | ⟨0, _⟩ => exact (hr0 _ _).trans hq
    | ⟨1, _⟩ => exact hr1 _ _)
  rw [el, er]

/-- A one-row table broadcast down the rows reads its one row at the entry's column. -/
theorem broadcastTo_oneRow {n d : Nat} (hd : d ≠ 1) (r : (Sh 1 d).Idx → EReal) (h : (Sh 1 d).Broadcasts (Sh n d)) (j : (Sh n d).Idx) :
    broadcastTo (Sh n d) r h j = r (ix2 (0 : Fin 1) (colOf j)) := by
  refine broadcastTo_apply r h j _ fun x => ?_
  match x with
  | ⟨0, _⟩ => show (0 : Nat) = if (1 : Nat) = 1 then 0 else _; rw [if_pos rfl]
  | ⟨1, _⟩ => show (j 1).val = if d = 1 then 0 else (j 1).val; rw [if_neg hd]

end Cert.Hand

end
-- ==== Proof.RefStages.lean ====
/-
  The reference's dense stages are the dense pieces of `Cert.Hand`: each host matrix product is the table product, each
  "add the bias vector to every row, clamp at zero" is `relu (addRow · (oneRow ·))`, and the product of the concatenated
  table [node half | question half] with the fused 256-row weight table is the sum of the two halves' products with the
  weight table's upper and lower 128 rows (a sum over 256 terms split in two: addition of extended reals is commutative
  and associative, nothing else is used).
-/
import proofs.«144733_j57853209477141_2_alg».proof.Proof.RefRead
import proofs.«144733_j57853209477141_2_alg».proof.Proof.LibMatProd

noncomputable section

namespace Cert.Hand

open Idealize.ShloMosaic Idealize.ShloMosaic.ValueIdx

/-! ## Host layout operations on rows -/

/-- A vector reshaped to a one-row table is that vector as one row. -/
theorem shapeCast_oneRow {d : Nat} (v : (⟨1, ![d]⟩ : Shape).Idx → EReal) (h : (⟨1, ![d]⟩ : Shape).ShapeCasts (Sh 1 d)) :
    shapeCast (Sh 1 d) v h = oneRow v := by
  funext j
  refine shapeCast_apply v h j (ix1 (colOf j)) ?_
  rw [Shape.rowMajor_val_one, Shape.rowMajor_val_two]
  have h0 : (j 0).val < 1 := (j 0).isLt
  have h00 : (j 0).val = 0 := by omega
  show (j 1).val = (j 0).val * d + (j 1).val
  rw [h00, Nat.zero_mul, Nat.zero_add]

/-- A vector broadcast along a new leading axis of extent one is that vector as one row. -/
theorem broadcastInDim_oneRow {d : Nat} (hd : d ≠ 1) (v : (⟨1, ![d]⟩ : Shape).Idx → EReal)
    (h : (⟨1, ![d]⟩ : Shape).BroadcastsInDim (Sh 1 d) (![1] : Fin 1 → Fin (Sh 1 d).rank)) :
    broadcastInDim (Sh 1 d) ![1] h v = oneRow v := by
  funext j
  refine broadcastInDim_apply _ h v j (ix1 (colOf j)) fun a => ?_
  match a with
  | ⟨0, _⟩ => show (j 1).val = if d = 1 then 0 else (j 1).val; rw [if_neg hd]

/-- Adding a one-row table broadcast down the rows is `addRow`. -/
theorem addf_broadcastInDim_row {n d : Nat} (hd : d ≠ 1) (t : Tab n d) (r : Tab 1 d)
    (h : (Sh 1 d).BroadcastsInDim (Sh n d) (![0, 1] : Fin 2 → Fin (Sh n d).rank)) :
    addf (F := Ideal) (φ := .f32) t (broadcastInDim (Sh n d) ![0, 1] h r) = addRow t r := by
  funext j
  show t j + broadcastInDim (Sh n d) ![0, 1] h r j = t j + r (ix2 (0 : Fin 1) (colOf j))
  refine congrArg (t j + ·) (broadcastInDim_apply _ h r j _ fun a => ?_)
  match a with
  | ⟨0, _⟩ => show (0 : Nat) = if (1 : Nat) = 1 then 0 else _; rw [if_pos rfl]
  | ⟨1, _⟩ => show (j 1).val = if d = 1 then 0 else (j 1).val; rw [if_neg hd]

/-- The host's clamp: the maximum with the zero literal broadcast to the table's shape is `relu`. -/
theorem maximumf_zero {n d : Nat} (t : Tab n d)
    (h : (⟨0, ![]⟩ : Shape).BroadcastsInDim (Sh n d) (![] : Fin 0 → Fin (Sh n d).rank)) :
    maximumf (F := Ideal) (φ := .f32) t (broadcastInDim (Sh n d) ![] h (constant (F := Ideal) ⟨0, ![]⟩ .f32 0x00000000#32)) = relu t := by
  funext j
  show max (t j) (broadcastInDim (Sh n d) ![] h (constant (F := Ideal) ⟨0, ![]⟩ .f32 0x00000000#32) j) = max (t j) 0
  rw [broadcastInDim_apply _ h _ j (fun a => a.elim0) (fun a => a.elim0)]
  show max (t j) (Ideal.ofBits .f32 0x00000000#32) = _
  rw [Ideal.ofBits_zero_f32]

/-! ## The concatenated table times the fused weight table -/

/-- `[R | Q] · w` is `R · (upper 128 rows of w) + Q · (lower 128 rows of w)`: the sum over the 256 columns split at 128. -/
theorem mm_concat {n : Nat} (R Q : Tab n 128) (w : Tab 256 128)
    (hc : Shape.Concatenates [Sh n 128, Sh n 128] (Sh n 256) (1 : Fin 2))
    (h0 : (Sh 256 128).Slices ![0, 0] (Sh 128 128)) (h1 : (Sh 256 128).Slices ![128, 0] (Sh 128 128)) :
    mm (a := n) (k := 256) (b := 128) (concatenate (Sh n 256) (1 : Fin 2) [⟨Sh n 128, R⟩, ⟨Sh n 128, Q⟩] hc) w
      = fun j => mm (a := n) (k := 128) (b := 128) R (extractStridedSlice (Sh 128 128) ![0, 0] w h0) j
          + mm (a := n) (k := 128) (b := 128) Q (extractStridedSlice (Sh 128 128) ![128, 0] w h1) j := by
  funext j
  unfold mm
  refine (Fin.sum_univ_add (a := 128) (b := 128)
    (fun q => concatenate (Sh n 256) (1 : Fin 2) [⟨Sh n 128, R⟩, ⟨Sh n 128, Q⟩] hc (ix2 (rowOf j) q) * w (ix2 q (colOf j)))).trans ?_
  congr 1
  · refine Finset.sum_congr rfl fun p _ => ?_
    congr 1
    · refine concatenate_pair_apply_left (t := Sh n 256) (1 : Fin 2) R Q hc (ix2 (rowOf j) (Fin.castAdd 128 p)) rfl (ix2 (rowOf j) p) fun b => ?_
      match b with
      | ⟨0, _⟩ => rfl
      | ⟨1, _⟩ => rfl
    · refine (extractStridedSlice_apply ![0, 0] w h0 (ix2 p (colOf j)) (ix2 (Fin.castAdd 128 p) (colOf j)) fun a => ?_).symm
      match a with
      | ⟨0, _⟩ => show p.val = 0 + p.val; omega
      | ⟨1, _⟩ => show (j 1).val = 0 + (j 1).val; omega
  · refine Finset.sum_congr rfl fun p _ => ?_
    congr 1
    · refine concatenate_pair_apply_right (t := Sh n 256) (1 : Fin 2) R Q hc (ix2 (rowOf j) (Fin.natAdd 128 p)) rfl rfl (ix2 (rowOf j) p) (fun b hb => ?_) ?_
      · match b with
        | ⟨0, _⟩ => rfl
        | ⟨1, _⟩ => exact absurd rfl hb
      · show p.val + 128 = 128 + p.val; omega
    · refine (extractStridedSlice_apply ![128, 0] w h1 (ix2 p (colOf j)) (ix2 (Fin.natAdd 128 p) (colOf j)) fun a => ?_).symm
      match a with
      | ⟨0, _⟩ => show 128 + p.val = 128 + p.val; rfl
      | ⟨1, _⟩ => show (j 1).val = 0 + (j 1).val; omega

end Cert.Hand

namespace Cert.ReferenceIdeal.Stages

open Cert.ReferenceIdeal Cert.ReferenceIdeal.Gen Cert.ReferenceIdeal.ReadP Cert.Hand Idealize.ShloMosaic Idealize.ShloMosaic.ValueIdx

/-- The first layer's projection is the table product. -/
theorem v30_eq (x0 : (⟨S50000x128, .f32⟩ : BufTy).Contents (Elt Ideal)) (x4 : (⟨S128x128, .f32⟩ : BufTy).Contents (Elt Ideal)) :
    val_main_v30 (F := Ideal) x0 x4 = mm (a := 50000) (k := 128) (b := 128) x0 x4 := by
  unfold val_main_v30
  exact dotGeneral_eq_mm (a := 50000) (k := 128) (b := 128) dot_S50000x128_S128x128_S50000x128_1_0_0_1_n_n rfl rfl
    lhs_main_v30_0 lhs_main_v30_1 rhs_main_v30_0 rhs_main_v30_1 x0 x4

/-- The second layer's projection of the first layer's output: bias row, clamp, table product. -/
theorem v48_eq (x0 : (⟨S50000x128, .f32⟩ : BufTy).Contents (Elt Ideal)) (x1 : (⟨S2x800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) :
    val_main_v48 (F := Ideal) x0 x1 x4 x5 x6
      = mm (a := 50000) (k := 128) (b := 128) (relu (addRow (n := 50000) (d := 128) (val_main_v43 (F := Ideal) x0 x1 x4) (oneRow x5))) x6 := by
  unfold val_main_v48
  rw [dotGeneral_eq_mm (a := 50000) (k := 128) (b := 128) dot_S50000x128_S128x128_S50000x128_1_0_0_1_n_n rfl rfl
    lhs_main_v48_0 lhs_main_v48_1 rhs_main_v48_0 rhs_main_v48_1]
  refine congrArg (fun t => mm (a := 50000) (k := 128) (b := 128) t x6) ?_
  unfold val_main_v47 val_main_v46 val_main_call1_v0 val_main_call1_cst val_main_v45 val_main_v44
  rw [broadcastInDim_oneRow (d := 128) (by decide) x5, addf_broadcastInDim_row (n := 50000) (d := 128) (by decide), maximumf_zero]

/-- The third layer's projection of the second layer's output. -/
theorem v66_eq (x0 : (⟨S50000x128, .f32⟩ : BufTy).Contents (Elt Ideal)) (x1 : (⟨S2x800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) :
    val_main_v66 (F := Ideal) x0 x1 x4 x5 x6 x7 x8
      = mm (a := 50000) (k := 128) (b := 128) (relu (addRow (n := 50000) (d := 128) (val_main_v61 (F := Ideal) x0 x1 x4 x5 x6) (oneRow x7))) x8 := by
  unfold val_main_v66
  rw [dotGeneral_eq_mm (a := 50000) (k := 128) (b := 128) dot_S50000x128_S128x128_S50000x128_1_0_0_1_n_n rfl rfl
    lhs_main_v66_0 lhs_main_v66_1 rhs_main_v66_0 rhs_main_v66_1]
  refine congrArg (fun t => mm (a := 50000) (k := 128) (b := 128) t x8) ?_
  unfold val_main_v65 val_main_v64 val_main_call2_v0 val_main_call2_cst val_main_v63 val_main_v62
  rw [broadcastInDim_oneRow (d := 128) (by decide) x7, addf_broadcastInDim_row (n := 50000) (d := 128) (by decide), maximumf_zero]

/-- The question projection is the table product. -/
theorem v84_eq (x3 : (⟨S64x768, .f32⟩ : BufTy).Contents (Elt Ideal)) (x10 : (⟨S768x128, .f32⟩ : BufTy).Contents (Elt Ideal)) :
    val_main_v84 (F := Ideal) x3 x10 = mm (a := 64) (k := 768) (b := 128) x3 x10 := by
  unfold val_main_v84
  exact dotGeneral_eq_mm (a := 64) (k := 768) (b := 128) dot_S64x768_S768x128_S64x128_1_0_0_1_n_n rfl rfl
    lhs_main_v84_0 lhs_main_v84_1 rhs_main_v84_0 rhs_main_v84_1 x3 x10

/-- The projected question table with its bias row added and clamped. -/
theorem v88_eq (x3 : (⟨S64x768, .f32⟩ : BufTy).Contents (Elt Ideal)) (x10 : (⟨S768x128, .f32⟩ : BufTy).Contents (Elt Ideal))
    (x11 : (⟨S128, .f32⟩ : BufTy).Contents (Elt Ideal)) :
    val_main_v88 (F := Ideal) x3 x10 x11 = relu (addRow (n := 64) (d := 128) (val_main_v84 (F := Ideal) x3 x10) (oneRow x11)) := by
  unfold val_main_v88 val_main_v87 val_main_call4_v0 val_main_call4_cst val_main_v86 val_main_v85
  rw [broadcastInDim_oneRow (d := 128) (by decide) x11, addf_broadcastInDim_row (n := 64) (d := 128) (by decide), maximumf_zero]

/-- The reference's result is the dense tail of the last aggregated table and the gathered question rows, the fused
    256-row weight table entering through its upper and lower halves. -/
theorem v105_eq (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S64x768, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S768x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x32, .f32⟩ : BufTy).Contents (Elt Ideal)) (x15 : (⟨S32, .f32⟩ : BufTy).Contents (Elt Ideal))
    (h0 : S256x128.Slices ![0, 0] S128x128) (h1 : S256x128.Slices ![128, 0] S128x128) :
    val_main_v105 (F := Ideal) x0 x1 x2 x3 x4 x5 x6 x7 x8 x9 x10 x11 x12 x13 x14 x15
      = tail (n := 50000) (val_main_v79 (F := Ideal) x0 x1 x4 x5 x6 x7 x8) (oneRow x9) (val_main_v95 (F := Ideal) x2 x3 x10 x11)
          (extractStridedSlice S128x128 ![0, 0] x12 h0) (extractStridedSlice S128x128 ![128, 0] x12 h1) (oneRow x13) x14 (oneRow x15) := by
  unfold val_main_v105 val_main_v104 val_main_v103 val_main_v102 val_main_v101 val_main_call5_v0 val_main_call5_cst val_main_v100
    val_main_v99 val_main_v98 val_main_v97 val_main_v96 val_main_v83 val_main_call3_v0 val_main_call3_cst val_main_v82 val_main_v81 val_main_v80
  rw [dotGeneral_eq_mm (a := 50000) (k := 128) (b := 32) dot_S50000x128_S128x32_S50000x32_1_0_0_1_n_n rfl rfl
      lhs_main_v102_0 lhs_main_v102_1 rhs_main_v102_0 rhs_main_v102_1,
    dotGeneral_eq_mm (a := 50000) (k := 256) (b := 128) dot_S50000x256_S256x128_S50000x128_1_0_0_1_n_n rfl rfl
      lhs_main_v97_0 lhs_main_v97_1 rhs_main_v97_0 rhs_main_v97_1,
    mm_concat (n := 50000) _ _ x12 concatenates_S50000x128_S50000x128_S50000x256_d1 h0 h1,
    broadcastInDim_oneRow (d := 128) (by decide) x9, broadcastInDim_oneRow (d := 128) (by decide) x13,
    broadcastInDim_oneRow (d := 32) (by decide) x15]
  simp only [addf_broadcastInDim_row (n := 50000) (d := 128) (by decide), addf_broadcastInDim_row (n := 50000) (d := 32) (by decide)]
  rw [maximumf_zero, maximumf_zero]
  rfl

end Cert.ReferenceIdeal.Stages

end
-- ==== Proof.Stretches.lean ====
/-
  The stretches of host operations between the regions, each read over ANY contents `Wv` of the tables it starts from:
  what it leaves in the table a later segment reads, as the reference's own stage of the same operations applied to what
  `Wv` holds.  Both programs run the same host operations on the edge list (sources and targets with the self loops
  appended, the in-degree counts, their inverse square roots, the per-edge weights) and the same gather / scale / sum
  round after each projection, so each stretch's result is the reference's stage as soon as its inputs are.
-/
import proofs.«144733_j57853209477141_2_alg».proof.Proof.Gen.KernelIdeal.Launch
import proofs.«144733_j57853209477141_2_alg».proof.Proof.RefStages
import Idealize.ShloMosaic.Lib.StableHlo.Run
import Idealize.ShloMosaic.PureOps.Ideal

set_option maxRecDepth 16384
set_option maxHeartbeats 4000000

noncomputable section

namespace Cert.KernelIdeal.Whole

open Cert.KernelIdeal Cert.KernelIdeal.Gen Cert.ReferenceIdeal.ReadP Cert.Hand
open Idealize.ShloMosaic Idealize.ShloMosaic.TcCoe Idealize.SL.Sem Idealize.ShloMosaic.StableHlo

variable (Wv : Valuation τ sig (Elt Ideal))

/-! ## The edge list and the in-degree normalisation -/

theorem s0_v3 : StableHlo.after hostOps0 Wv (Proc.devRef .tc main_v3) = val_main_v3 (F := Ideal) (Wv (Proc.devRef .tc main_arg1)) := by
  simp only [hostOps0]
  after_results
  all_goals rfl

theorem s0_v6 : StableHlo.after hostOps0 Wv (Proc.devRef .tc main_v6) = val_main_v6 (F := Ideal) (Wv (Proc.devRef .tc main_arg1)) := by
  simp only [hostOps0]
  after_results
  all_goals rfl

theorem s0_v12 : StableHlo.after hostOps0 Wv (Proc.devRef .tc main_v12) = val_main_v12 (F := Ideal) (Wv (Proc.devRef .tc main_arg1)) := by
  simp only [hostOps0]
  after_results
  all_goals rfl

theorem s0_v13 : StableHlo.after hostOps0 Wv (Proc.devRef .tc main_v13) = val_main_v13 (F := Ideal) (Wv (Proc.devRef .tc main_arg1)) := by
  simp only [hostOps0]
  after_results
  all_goals rfl

theorem s0_cst_2 : StableHlo.after hostOps0 Wv (Proc.devRef .tc main_cst_2) = val_main_cst_2 (F := Ideal) := by
  simp only [hostOps0]
  after_results
  all_goals rfl

/-! ### The typed references of the outlined select are plain references: their transports are the identity -/

theorem toBuf_v14 (v : (⟨S50000, .f32⟩ : BufTy).Contents (Elt Ideal)) :
    (TRef.of main_v14 : TRef sig ⟨S50000, .f32⟩).toBuf v = v := rfl
theorem ofBuf_v12 (v : (⟨S50000, .i1⟩ : BufTy).Contents (Elt Ideal)) :
    (TRef.of main_v12 : TRef sig ⟨S50000, .i1⟩).ofBuf v = v := rfl
theorem ofBuf_v13 (v : (⟨S50000, .f32⟩ : BufTy).Contents (Elt Ideal)) :
    (TRef.of main_v13 : TRef sig ⟨S50000, .f32⟩).ofBuf v = v := rfl
theorem ofBuf_call0_v1 (v : (⟨S50000, .f32⟩ : BufTy).Contents (Elt Ideal)) :
    (TRef.of main_call0_v1 : TRef sig ⟨S50000, .f32⟩).ofBuf v = v := rfl
theorem toBuf_call0_v1 (v : (⟨S50000, .f32⟩ : BufTy).Contents (Elt Ideal)) :
    (TRef.of main_call0_v1 : TRef sig ⟨S50000, .f32⟩).toBuf v = v := rfl
theorem ofBuf_call0_v0 (v : (⟨S_, .f32⟩ : BufTy).Contents (Elt Ideal)) :
    (TRef.of main_call0_v0 : TRef sig ⟨S_, .f32⟩).ofBuf v = v := rfl
theorem toBuf_call0_v0 (v : (⟨S_, .f32⟩ : BufTy).Contents (Elt Ideal)) :
    (TRef.of main_call0_v0 : TRef sig ⟨S_, .f32⟩).toBuf v = v := rfl
theorem ofBuf_cst_2 (v : (⟨S_, .f32⟩ : BufTy).Contents (Elt Ideal)) :
    (TRef.of main_cst_2 : TRef sig ⟨S_, .f32⟩).ofBuf v = v := rfl

/-- The inverse square roots of the in-degrees, zero where the degree is zero. -/
theorem s1_v14 (x1 : (⟨Cert.ReferenceIdeal.S2x800000, .i32⟩ : BufTy).Contents (Elt Ideal))
    (h12 : Wv (Proc.devRef .tc main_v12) = val_main_v12 (F := Ideal) x1)
    (h13 : Wv (Proc.devRef .tc main_v13) = val_main_v13 (F := Ideal) x1)
    (hc2 : Wv (Proc.devRef .tc main_cst_2) = val_main_cst_2 (F := Ideal)) :
    StableHlo.after hostOps0_1 Wv (Proc.devRef .tc main_v14) = val_main_v14 (F := Ideal) x1 := by
  simp only [hostOps0_1]
  after_results
  rw [h12, h13, hc2]
  rw [toBuf_v14, ofBuf_v12, ofBuf_v13, ofBuf_call0_v1, toBuf_call0_v1, ofBuf_call0_v0, toBuf_call0_v0, ofBuf_cst_2]
  rfl

set_option maxHeartbeats 4000000 in
/-- The per-edge weights: the product of the two end points' inverse square roots. -/
theorem s2_v29 (x1 : (⟨Cert.ReferenceIdeal.S2x800000, .i32⟩ : BufTy).Contents (Elt Ideal))
    (h3 : Wv (Proc.devRef .tc main_v3) = val_main_v3 (F := Ideal) x1)
    (h6 : Wv (Proc.devRef .tc main_v6) = val_main_v6 (F := Ideal) x1)
    (h14 : Wv (Proc.devRef .tc main_v14) = val_main_v14 (F := Ideal) x1) :
    StableHlo.after hostOps0_2 Wv (Proc.devRef .tc main_v29) = val_main_v29 (F := Ideal) x1 := by
  unfold hostOps0_2
  after_results
  rw [h3, h6, h14]
  rfl

/-! ## One round of message passing: gather the projected rows along the edges, scale, sum per node -/

set_option maxHeartbeats 4000000 in
theorem s_round1 (x0 : (⟨Cert.ReferenceIdeal.S50000x128, .f32⟩ : BufTy).Contents (Elt Ideal))
    (x1 : (⟨Cert.ReferenceIdeal.S2x800000, .i32⟩ : BufTy).Contents (Elt Ideal))
    (x4 : (⟨Cert.ReferenceIdeal.S128x128, .f32⟩ : BufTy).Contents (Elt Ideal))
    (hp : Wv (Proc.devRef .tc main_v45) = val_main_v30 (F := Ideal) x0 x4)
    (h3 : Wv (Proc.devRef .tc main_v3) = val_main_v3 (F := Ideal) x1)
    (h6 : Wv (Proc.devRef .tc main_v6) = val_main_v6 (F := Ideal) x1)
    (h29 : Wv (Proc.devRef .tc main_v29) = val_main_v29 (F := Ideal) x1) :
    StableHlo.after hostOps1 Wv (Proc.devRef .tc main_v58) = val_main_v43 (F := Ideal) x0 x1 x4 := by
  unfold hostOps1
  after_results
  rw [hp, h3, h6, h29]
  rfl

/-- The question rows gathered per node. -/
theorem s_qrows (x2 : (⟨Cert.ReferenceIdeal.S50000, .i32⟩ : BufTy).Contents (Elt Ideal))
    (x3 : (⟨Cert.ReferenceIdeal.S64x768, .f32⟩ : BufTy).Contents (Elt Ideal))
    (x10 : (⟨Cert.ReferenceIdeal.S768x128, .f32⟩ : BufTy).Contents (Elt Ideal))
    (x11 : (⟨Cert.ReferenceIdeal.S128, .f32⟩ : BufTy).Contents (Elt Ideal))
    (hq : Wv (Proc.devRef .tc main_v88) = val_main_v88 (F := Ideal) x3 x10 x11)
    (h2 : Wv (Proc.devRef .tc main_arg2) = x2) :
    StableHlo.after hostOps5 Wv (Proc.devRef .tc main_v95) = val_main_v95 (F := Ideal) x2 x3 x10 x11 := by
  simp only [hostOps5]
  after_results
  rw [hq, h2]
  rfl

/-! ## The weight tables in their block format and the bias vectors as one-row tables

A change of float format is the identity on extended reals, so each converted weight table is the launched weight table
(or its upper / lower half); each reshaped bias vector is that vector as one row. -/

theorem s2_v30 : (StableHlo.after hostOps0_2 Wv (Proc.devRef .tc main_v30) : S128x128.Idx → EReal) = (Wv (Proc.devRef .tc main_arg4) : S128x128.Idx → EReal) := by
  unfold hostOps0_2
  after_results
  all_goals rfl
theorem s2_v31 : (StableHlo.after hostOps0_2 Wv (Proc.devRef .tc main_v31) : S128x128.Idx → EReal) = (Wv (Proc.devRef .tc main_arg6) : S128x128.Idx → EReal) := by
  unfold hostOps0_2
  after_results
  all_goals rfl
theorem s2_v32 : (StableHlo.after hostOps0_2 Wv (Proc.devRef .tc main_v32) : S128x128.Idx → EReal) = (Wv (Proc.devRef .tc main_arg8) : S128x128.Idx → EReal) := by
  unfold hostOps0_2
  after_results
  all_goals rfl
theorem s2_v33 : (StableHlo.after hostOps0_2 Wv (Proc.devRef .tc main_v33) : S768x128.Idx → EReal) = (Wv (Proc.devRef .tc main_arg10) : S768x128.Idx → EReal) := by
  unfold hostOps0_2
  after_results
  all_goals rfl
theorem s2_v35 : (StableHlo.after hostOps0_2 Wv (Proc.devRef .tc main_v35) : S128x128.Idx → EReal)
    = extractStridedSlice S128x128 ![0, 0] (Wv (Proc.devRef .tc main_arg12) : S256x128.Idx → EReal) slices_S256x128_S128x128_0_0 := by
  unfold hostOps0_2
  after_results
  all_goals rfl
theorem s2_v37 : (StableHlo.after hostOps0_2 Wv (Proc.devRef .tc main_v37) : S128x128.Idx → EReal)
    = extractStridedSlice S128x128 ![128, 0] (Wv (Proc.devRef .tc main_arg12) : S256x128.Idx → EReal) slices_S256x128_S128x128_128_0 := by
  unfold hostOps0_2
  after_results
  all_goals rfl
theorem s2_v38 : (StableHlo.after hostOps0_2 Wv (Proc.devRef .tc main_v38) : S128x32.Idx → EReal) = (Wv (Proc.devRef .tc main_arg14) : S128x32.Idx → EReal) := by
  unfold hostOps0_2
  after_results
  all_goals rfl

theorem s2_v39 : (StableHlo.after hostOps0_2 Wv (Proc.devRef .tc main_v39) : S1x128.Idx → EReal) = oneRow (Wv (Proc.devRef .tc main_arg5) : S128.Idx → EReal) := by
  unfold hostOps0_2
  after_results
  exact shapeCast_oneRow (d := 128) _ shapeCasts_S128_S1x128
theorem s2_v40 : (StableHlo.after hostOps0_2 Wv (Proc.devRef .tc main_v40) : S1x128.Idx → EReal) = oneRow (Wv (Proc.devRef .tc main_arg7) : S128.Idx → EReal) := by
  unfold hostOps0_2
  after_results
  exact shapeCast_oneRow (d := 128) _ shapeCasts_S128_S1x128
theorem s2_v41 : (StableHlo.after hostOps0_2 Wv (Proc.devRef .tc main_v41) : S1x128.Idx → EReal) = oneRow (Wv (Proc.devRef .tc main_arg9) : S128.Idx → EReal) := by
  unfold hostOps0_2
  after_results
  exact shapeCast_oneRow (d := 128) _ shapeCasts_S128_S1x128
theorem s2_v42 : (StableHlo.after hostOps0_2 Wv (Proc.devRef .tc main_v42) : S1x128.Idx → EReal) = oneRow (Wv (Proc.devRef .tc main_arg11) : S128.Idx → EReal) := by
  unfold hostOps0_2
  after_results
  exact shapeCast_oneRow (d := 128) _ shapeCasts_S128_S1x128
theorem s2_v43 : (StableHlo.after hostOps0_2 Wv (Proc.devRef .tc main_v43) : S1x128.Idx → EReal) = oneRow (Wv (Proc.devRef .tc main_arg13) : S128.Idx → EReal) := by
  unfold hostOps0_2
  after_results
  exact shapeCast_oneRow (d := 128) _ shapeCasts_S128_S1x128
theorem s2_v44 : (StableHlo.after hostOps0_2 Wv (Proc.devRef .tc main_v44) : S1x32.Idx → EReal) = oneRow (Wv (Proc.devRef .tc main_arg15) : S32.Idx → EReal) := by
  unfold hostOps0_2
  after_results
  exact shapeCast_oneRow (d := 32) _ shapeCasts_S32_S1x32

/-! ## The second and third rounds of message passing -/

set_option maxHeartbeats 4000000 in
theorem s_round2 (x0 : (⟨Cert.ReferenceIdeal.S50000x128, .f32⟩ : BufTy).Contents (Elt Ideal))
    (x1 : (⟨Cert.ReferenceIdeal.S2x800000, .i32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (hp : Wv (Proc.devRef .tc main_v59) = val_main_v48 (F := Ideal) x0 x1 x4 x5 x6)
    (h3 : Wv (Proc.devRef .tc main_v3) = val_main_v3 (F := Ideal) x1)
    (h6 : Wv (Proc.devRef .tc main_v6) = val_main_v6 (F := Ideal) x1)
    (h29 : Wv (Proc.devRef .tc main_v29) = val_main_v29 (F := Ideal) x1) :
    StableHlo.after hostOps2 Wv (Proc.devRef .tc main_v72) = val_main_v61 (F := Ideal) x0 x1 x4 x5 x6 := by
  unfold hostOps2
  after_results
  rw [hp, h3, h6, h29]
  rfl

set_option maxHeartbeats 4000000 in
theorem s_round3 (x0 : (⟨Cert.ReferenceIdeal.S50000x128, .f32⟩ : BufTy).Contents (Elt Ideal))
    (x1 : (⟨Cert.ReferenceIdeal.S2x800000, .i32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal))
    (x8 : (⟨Cert.ReferenceIdeal.S128x128, .f32⟩ : BufTy).Contents (Elt Ideal))
    (hp : Wv (Proc.devRef .tc main_v73) = val_main_v66 (F := Ideal) x0 x1 x4 x5 x6 x7 x8)
    (h3 : Wv (Proc.devRef .tc main_v3) = val_main_v3 (F := Ideal) x1)
    (h6 : Wv (Proc.devRef .tc main_v6) = val_main_v6 (F := Ideal) x1)
    (h29 : Wv (Proc.devRef .tc main_v29) = val_main_v29 (F := Ideal) x1) :
    StableHlo.after hostOps3 Wv (Proc.devRef .tc main_v86) = val_main_v79 (F := Ideal) x0 x1 x4 x5 x6 x7 x8 := by
  unfold hostOps3
  after_results
  rw [hp, h3, h6, h29]
  rfl

end Cert.KernelIdeal.Whole

end
-- ==== Proof.Payloads.lean ====
/-
  Each region's body, read at the extended reals, as a function of its loaded blocks: the body's arithmetic is one of
  the dense pieces of `Cert.Hand` applied to the blocks (a change of float format is the identity; a block product
  accumulated into zeros is the table product; the literal zero the clamp compares with is the real zero).
-/
import proofs.«144733_j57853209477141_2_alg».proof.Proof.Gen.KernelIdeal.Skeleton
import proofs.«144733_j57853209477141_2_alg».proof.Proof.LibMatProd

noncomputable section

namespace Cert.KernelIdeal.Dense

open Cert.KernelIdeal Cert.KernelIdeal.Gen Cert.Hand Idealize.ShloMosaic Idealize.ShloMosaic.ValueIdx

theorem hz : (![0, 0] : Fin 2 → Nat) = fun _ => 0 := funext fun a => by fin_cases a <;> rfl

/-! ## The printed dimension numbers contract the left operand's columns with the right operand's rows -/

abbrev DA := dot_S5000x128_S128x128_S5000x128_1_0_0_1_n_n
abbrev DQ := dot_S64x768_S768x128_S64x128_1_0_0_1_n_n
abbrev DO := dot_S5000x128_S128x32_S5000x32_1_0_0_1_n_n

theorem dA_l0 (j : S5000x128.Idx) (q : DA.contr.Idx) : (DA.lhsIdx j q 0).val = (j 0).val := by
  unfold DotDims.lhsIdx
  rw [dif_neg (show ¬(0 : Fin S5000x128.rank) ∈ DA.lhsBatch by decide), dif_pos (show (0 : Fin S5000x128.rank) ∈ DA.lhsNonContracting by decide)]
  rfl
theorem dA_l1 (j : S5000x128.Idx) (q : DA.contr.Idx) : (DA.lhsIdx j q 1).val = (q ⟨0, by decide⟩).val :=
  DA.lhsIdx_val_of_single rfl j q
theorem dA_r0 (j : S5000x128.Idx) (q : DA.contr.Idx) : (DA.rhsIdx j q 0).val = (q ⟨0, by decide⟩).val :=
  DA.rhsIdx_val_of_single rfl j q
theorem dA_r1 (j : S5000x128.Idx) (q : DA.contr.Idx) : (DA.rhsIdx j q 1).val = (j 1).val := by
  unfold DotDims.rhsIdx
  rw [dif_neg (show ¬(1 : Fin S128x128.rank) ∈ DA.rhsBatch by decide), dif_pos (show (1 : Fin S128x128.rank) ∈ DA.rhsNonContracting by decide)]
  rfl

theorem dQ_l0 (j : S64x128.Idx) (q : DQ.contr.Idx) : (DQ.lhsIdx j q 0).val = (j 0).val := by
  unfold DotDims.lhsIdx
  rw [dif_neg (show ¬(0 : Fin S64x768.rank) ∈ DQ.lhsBatch by decide), dif_pos (show (0 : Fin S64x768.rank) ∈ DQ.lhsNonContracting by decide)]
  rfl
theorem dQ_l1 (j : S64x128.Idx) (q : DQ.contr.Idx) : (DQ.lhsIdx j q 1).val = (q ⟨0, by decide⟩).val :=
  DQ.lhsIdx_val_of_single rfl j q
theorem dQ_r0 (j : S64x128.Idx) (q : DQ.contr.Idx) : (DQ.rhsIdx j q 0).val = (q ⟨0, by decide⟩).val :=
  DQ.rhsIdx_val_of_single rfl j q
theorem dQ_r1 (j : S64x128.Idx) (q : DQ.contr.Idx) : (DQ.rhsIdx j q 1).val = (j 1).val := by
  unfold DotDims.rhsIdx
  rw [dif_neg (show ¬(1 : Fin S768x128.rank) ∈ DQ.rhsBatch by decide), dif_pos (show (1 : Fin S768x128.rank) ∈ DQ.rhsNonContracting by decide)]
  rfl

theorem dO_l0 (j : S5000x32.Idx) (q : DO.contr.Idx) : (DO.lhsIdx j q 0).val = (j 0).val := by
  unfold DotDims.lhsIdx
  rw [dif_neg (show ¬(0 : Fin S5000x128.rank) ∈ DO.lhsBatch by decide), dif_pos (show (0 : Fin S5000x128.rank) ∈ DO.lhsNonContracting by decide)]
  rfl
theorem dO_l1 (j : S5000x32.Idx) (q : DO.contr.Idx) : (DO.lhsIdx j q 1).val = (q ⟨0, by decide⟩).val :=
  DO.lhsIdx_val_of_single rfl j q
theorem dO_r0 (j : S5000x32.Idx) (q : DO.contr.Idx) : (DO.rhsIdx j q 0).val = (q ⟨0, by decide⟩).val :=
  DO.rhsIdx_val_of_single rfl j q
theorem dO_r1 (j : S5000x32.Idx) (q : DO.contr.Idx) : (DO.rhsIdx j q 1).val = (j 1).val := by
  unfold DotDims.rhsIdx
  rw [dif_neg (show ¬(1 : Fin S128x32.rank) ∈ DO.rhsBatch by decide), dif_pos (show (1 : Fin S128x32.rank) ∈ DO.rhsNonContracting by decide)]
  rfl

/-! ## Each body's arithmetic, as a function of its loaded blocks -/

/-- The first projection's body: the block of node rows times the weight table. -/
theorem pay0 (x0 : Vec Ideal S5000x128 .f32) (w : Vec Ideal S128x128 .bf16) :
    k0_pay1 x0 w = mm (a := 5000) (k := 128) (b := 128) x0 w := by
  unfold k0_pay1
  simp only [shapeCast_self]
  exact matmul_eq_mm (a := 5000) (k := 128) (b := 128) DA rfl rfl dA_l0 dA_l1 dA_r0 dA_r1 (truncf .bf16 x0 bitsLt_bf16_f32) w

/-- A fused layer's body: bias row, clamp, then the weight table. -/
theorem pay1 (x0 : Vec Ideal S5000x128 .f32) (b : Vec Ideal S1x128 .f32) (w : Vec Ideal S128x128 .bf16) :
    k1_pay1 x0 b w = mm (a := 5000) (k := 128) (b := 128) (relu (addRow (n := 5000) (d := 128) x0 b)) w := by
  unfold k1_pay1
  simp only [shapeCast_self]
  refine (matmul_eq_mm (a := 5000) (k := 128) (b := 128) DA rfl rfl dA_l0 dA_l1 dA_r0 dA_r1 _ w).trans ?_
  refine congrArg (fun t => mm (a := 5000) (k := 128) (b := 128) t w) (funext fun j => ?_)
  show max (x0 j + broadcastTo S5000x128 b broadcasts_S1x128_S5000x128 j) (Ideal.ofBits .f32 0x00000000#32) = max (x0 j + b (ix2 (0 : Fin 1) (colOf j))) 0
  rw [broadcastTo_oneRow (n := 5000) (d := 128) (by decide) b _ j, Ideal.ofBits_zero_f32]

/-- The second fused layer's body is the first's, printed again. -/
theorem pay2 (x0 : Vec Ideal S5000x128 .f32) (b : Vec Ideal S1x128 .f32) (w : Vec Ideal S128x128 .bf16) :
    k2_pay1 x0 b w = mm (a := 5000) (k := 128) (b := 128) (relu (addRow (n := 5000) (d := 128) x0 b)) w := by
  unfold k2_pay1
  simp only [shapeCast_self]
  refine (matmul_eq_mm (a := 5000) (k := 128) (b := 128) DA rfl rfl dA_l0 dA_l1 dA_r0 dA_r1 _ w).trans ?_
  refine congrArg (fun t => mm (a := 5000) (k := 128) (b := 128) t w) (funext fun j => ?_)
  show max (x0 j + broadcastTo S5000x128 b broadcasts_S1x128_S5000x128 j) (Ideal.ofBits .f32 0x00000000#32) = max (x0 j + b (ix2 (0 : Fin 1) (colOf j))) 0
  rw [broadcastTo_oneRow (n := 5000) (d := 128) (by decide) b _ j, Ideal.ofBits_zero_f32]

/-- The question projection's body: the question table times its weight table. -/
theorem pay3 (x0 : Vec Ideal S64x768 .f32) (w : Vec Ideal S768x128 .bf16) :
    k3_pay1 x0 w = mm (a := 64) (k := 768) (b := 128) x0 w := by
  unfold k3_pay1
  simp only [shapeCast_self]
  exact matmul_eq_mm (a := 64) (k := 768) (b := 128) DQ rfl rfl dQ_l0 dQ_l1 dQ_r0 dQ_r1 (truncf .bf16 x0 bitsLt_bf16_f32) w

/-- The question bias body: bias row and clamp. -/
theorem pay4 (x0 : Vec Ideal S64x128 .f32) (b : Vec Ideal S1x128 .f32) :
    k4_pay1 x0 b = relu (addRow (n := 64) (d := 128) x0 b) := by
  unfold k4_pay1
  simp only [shapeCast_self]
  funext j
  show max (x0 j + broadcastTo S64x128 b broadcasts_S1x128_S64x128 j) (Ideal.ofBits .f32 0x00000000#32) = max (x0 j + b (ix2 (0 : Fin 1) (colOf j))) 0
  rw [broadcastTo_oneRow (n := 64) (d := 128) (by decide) b _ j, Ideal.ofBits_zero_f32]

/-- Bias row and clamp on a block of 5000 rows, as the body spells it (the change of float format is the identity). -/
theorem act5000 (x0 : FVec Ideal S5000x128 .f32) (b : FVec Ideal S1x128 .f32) :
    (truncf .bf16 (maximumf (addf x0 (broadcastTo S5000x128 b broadcasts_S1x128_S5000x128)) (broadcast S5000x128 (Scalar.ofBits .f32 0x00000000#32))) bitsLt_bf16_f32 : FVec Ideal S5000x128 .bf16)
      = relu (addRow (n := 5000) (d := 128) x0 b) := by
  funext j
  show max (x0 j + broadcastTo S5000x128 b broadcasts_S1x128_S5000x128 j) (Ideal.ofBits .f32 0x00000000#32) = max (x0 j + b (ix2 (0 : Fin 1) (colOf j))) 0
  rw [broadcastTo_oneRow (n := 5000) (d := 128) (by decide) b _ j, Ideal.ofBits_zero_f32]

/-- The tail's body is the dense tail on its block of rows. -/
theorem pay5 (x0 : Vec Ideal S5000x128 .f32) (b2 : Vec Ideal S1x128 .f32) (qe : Vec Ideal S5000x128 .f32)
    (wh wq : Vec Ideal S128x128 .bf16) (b1 : Vec Ideal S1x128 .f32) (w2 : Vec Ideal S128x32 .bf16) (bo : Vec Ideal S1x32 .f32) :
    k5_pay1 x0 b2 qe wh wq b1 w2 bo = tail (n := 5000) x0 b2 qe wh wq b1 w2 bo := by
  unfold k5_pay1
  simp only [shapeCast_self]
  rw [act5000 x0 b2,
    matmul_eq_mm (a := 5000) (k := 128) (b := 128) DA rfl rfl dA_l0 dA_l1 dA_r0 dA_r1 (relu (addRow (n := 5000) (d := 128) x0 b2)) wh,
    matmul_eq_mm (a := 5000) (k := 128) (b := 128) DA rfl rfl dA_l0 dA_l1 dA_r0 dA_r1 (truncf .bf16 qe bitsLt_bf16_f32) wq,
    act5000 _ b1,
    matmul_eq_mm (a := 5000) (k := 128) (b := 32) DO rfl rfl dO_l0 dO_l1 dO_r0 dO_r1 _ w2]
  funext i
  show _ + broadcastTo S5000x32 bo broadcasts_S1x32_S5000x32 i = _
  rw [broadcastTo_oneRow (n := 5000) (d := 32) (by decide) bo _ i]
  rfl

end Cert.KernelIdeal.Dense

end
-- ==== Proof.Region0.lean ====
/-
  The first region: the node table times the first layer's weight table, on blocks of 5000 node rows.  Row-local, so the
  ten blocks written back tile the whole-table product.
-/
import proofs.«144733_j57853209477141_2_alg».proof.Proof.Gen.KernelIdeal.Frame
import proofs.«144733_j57853209477141_2_alg».proof.Proof.Payloads
import Idealize.ShloMosaic.Lib.Pipeline.Value

set_option maxRecDepth 16384

noncomputable section

namespace Cert.KernelIdeal.Dense

open Cert.KernelIdeal Cert.KernelIdeal.Gen Cert.Hand Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten grid points: the node table and the result move together, one block of rows per
    point; the weight table stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem le0 (t : Fin cfg0.N) : t.val * 5000 + 5000 ≤ 50000 := by
  have h : t.val < 10 := lt_of_lt_of_eq t.isLt N_0
  omega

/-- Point `t`'s block of the node table is rows 5000 t … 5000 t + 4999 of it. -/
theorem blk0_0 (c : Dev nD) (t : Fin cfg0.N) :
    (iblk0 V c 0 t : Vec Ideal S5000x128 .f32) = rows (N := 50000) (d := 128) 5000 (t.val * 5000) (le0 t) (V c main_arg0) := by
  obtain ⟨e0, e1, -⟩ := idx0 t
  funext y
  unfold iblk0 rows
  rw [View.read_apply]
  show V c main_arg0 _ = V c main_arg0 _
  refine congrArg (V c main_arg0) (funext fun a => Fin.ext ?_)
  match a with
  | ⟨0, _⟩ => show win0_0.index t (0 : Fin 2) * 5000 + 1 * (y 0).val = t.val * 5000 + (y 0).val; rw [e0]; omega
  | ⟨1, _⟩ => show win0_0.index t (1 : Fin 2) * 128 + 1 * (y 1).val = (y 1).val; rw [e1]; omega

/-- Every point's block of the weight table is the whole table. -/
theorem blk0_1 (c : Dev nD) (t : Fin cfg0.N) :
    (iblk0 V c 1 t : Vec Ideal S128x128 .bf16) = V c main_v30 := by
  obtain ⟨-, -, e2, e3, -⟩ := idx0 t
  funext y
  unfold iblk0
  rw [View.read_apply]
  show V c main_v30 _ = V c main_v30 y
  refine congrArg (V c main_v30) (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- Point `t`'s block of the result table, read off any table, is rows 5000 t … 5000 t + 4999 of it. -/
theorem read0 (t : Fin cfg0.N) (G : S50000x128.Idx → EReal) (j : S5000x128.Idx) :
    G (((cfg0.win 2).blk t).view.emb j) = rows (N := 50000) (d := 128) 5000 (t.val * 5000) (le0 t) G j := by
  obtain ⟨-, -, -, -, e4, e5⟩ := idx0 t
  unfold rows
  refine congrArg G (funext fun a => Fin.ext ?_)
  match a with
  | ⟨0, _⟩ => show win0_2.index t (0 : Fin 2) * 5000 + 1 * (j 0).val = t.val * 5000 + (j 0).val; rw [e4]; omega
  | ⟨1, _⟩ => show win0_2.index t (1 : Fin 2) * 128 + 1 * (j 1).val = (j 1).val; rw [e5]; omega

/-- What point `t` writes back is its block of rows of the whole product. -/
theorem flushed0 (c : Dev nD) (t : Fin cfg0.N) :
    (dat0 V c).flushed 2 t = ((cfg0.win 2).blk t).view.read (Elt Ideal) (mm (a := 50000) (k := 128) (b := 128) (V c main_arg0) (V c main_v30)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t) (iblk0 V c 1 t) j = mm (a := 50000) (k := 128) (b := 128) (V c main_arg0) (V c main_v30) (((cfg0.win 2).blk t).view.emb j)
  rw [read0 t (mm (a := 50000) (k := 128) (b := 128) (V c main_arg0) (V c main_v30)) j, rows_mm, blk0_0 V c t, blk0_1 V c t, pay0]

theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v45).slice (win0_2.rect t)).set ↔ _
  rw [View.set_slice_whole, Rect.mem_set_unit]
  exact Iff.rfl

/-- Row `r` of the result is in the block of point `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After the first region its result table holds the node table times the weight table. -/
theorem arr0 (c : Dev nD) :
    (dat0 V c).arrAt 2 cfg0.N = mm (a := 50000) (k := 128) (b := 128) (V c main_arg0) (V c main_v30) :=
  (dat0 V c).arrAt_eq_of_cover 2 _ (fun t _ => flushed0 V c t) cover0

end Cert.KernelIdeal.Dense

end
-- ==== Proof.Region1.lean ====
/-
  The second region: the first layer's bias row and clamp fused with the second layer's projection, on blocks of 5000
  node rows.  Row-local, so the ten blocks written back tile the whole-table function.
-/
import proofs.«144733_j57853209477141_2_alg».proof.Proof.Gen.KernelIdeal.Frame
import proofs.«144733_j57853209477141_2_alg».proof.Proof.Payloads
import Idealize.ShloMosaic.Lib.Pipeline.Value

set_option maxRecDepth 16384

noncomputable section

namespace Cert.KernelIdeal.Dense

open Cert.KernelIdeal Cert.KernelIdeal.Gen Cert.Hand Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten grid points: the aggregated table and the result move together, one block of
    rows per point; the bias row and the weight table stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem le1 (t : Fin cfg1.N) : t.val * 5000 + 5000 ≤ 50000 := by
  have h : t.val < 10 := lt_of_lt_of_eq t.isLt N_1
  omega

/-- Point `t`'s block of the aggregated table is rows 5000 t … 5000 t + 4999 of it. -/
theorem blk1_0 (c : Dev nD) (t : Fin cfg1.N) :
    (iblk1 V c 0 t : Vec Ideal S5000x128 .f32) = rows (N := 50000) (d := 128) 5000 (t.val * 5000) (le1 t) (V c main_v58) := by
  obtain ⟨e0, e1, -⟩ := idx1 t
  funext y
  unfold iblk1 rows
  rw [View.read_apply]
  show V c main_v58 _ = V c main_v58 _
  refine congrArg (V c main_v58) (funext fun a => Fin.ext ?_)
  match a with
  | ⟨0, _⟩ => show win1_0.index t (0 : Fin 2) * 5000 + 1 * (y 0).val = t.val * 5000 + (y 0).val; rw [e0]; omega
  | ⟨1, _⟩ => show win1_0.index t (1 : Fin 2) * 128 + 1 * (y 1).val = (y 1).val; rw [e1]; omega

/-- Every point's block of the bias row is the whole row. -/
theorem blk1_1 (c : Dev nD) (t : Fin cfg1.N) :
    (iblk1 V c 1 t : Vec Ideal S1x128 .f32) = V c main_v39 := by
  obtain ⟨-, -, e2, e3, -⟩ := idx1 t
  funext y
  unfold iblk1
  rw [View.read_apply]
  show V c main_v39 _ = V c main_v39 y
  refine congrArg (V c main_v39) (funext fun a => Fin.ext ?_)
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- Every point's block of the weight table is the whole table. -/
theorem blk1_2 (c : Dev nD) (t : Fin cfg1.N) :
    (iblk1 V c 2 t : Vec Ideal S128x128 .bf16) = V c main_v31 := by
  obtain ⟨-, -, -, -, e4, e5, -⟩ := idx1 t
  funext y
  unfold iblk1
  rw [View.read_apply]
  show V c main_v31 _ = V c main_v31 y
  refine congrArg (V c main_v31) (funext fun a => Fin.ext ?_)
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- Point `t`'s block of the result table, read off any table, is rows 5000 t … 5000 t + 4999 of it. -/
theorem read1 (t : Fin cfg1.N) (G : S50000x128.Idx → EReal) (j : S5000x128.Idx) :
    G (((cfg1.win 3).blk t).view.emb j) = rows (N := 50000) (d := 128) 5000 (t.val * 5000) (le1 t) G j := by
  obtain ⟨-, -, -, -, -, -, e6, e7⟩ := idx1 t
  unfold rows
  refine congrArg G (funext fun a => Fin.ext ?_)
  match a with
  | ⟨0, _⟩ => show win1_3.index t (0 : Fin 2) * 5000 + 1 * (j 0).val = t.val * 5000 + (j 0).val; rw [e6]; omega
  | ⟨1, _⟩ => show win1_3.index t (1 : Fin 2) * 128 + 1 * (j 1).val = (j 1).val; rw [e7]; omega

/-- What point `t` writes back is its block of rows of the whole-table function. -/
theorem flushed1 (c : Dev nD) (t : Fin cfg1.N) :
    (dat1 V c).flushed 3 t = ((cfg1.win 3).blk t).view.read (Elt Ideal)
      (mm (a := 50000) (k := 128) (b := 128) (relu (addRow (n := 50000) (d := 128) (V c main_v58) (V c main_v39))) (V c main_v31)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  funext j
  show k1_pay1 (iblk1 V c 0 t) (iblk1 V c 1 t) (iblk1 V c 2 t) j
    = mm (a := 50000) (k := 128) (b := 128) (relu (addRow (n := 50000) (d := 128) (V c main_v58) (V c main_v39))) (V c main_v31) (((cfg1.win 3).blk t).view.emb j)
  rw [read1 t (mm (a := 50000) (k := 128) (b := 128) (relu (addRow (n := 50000) (d := 128) (V c main_v58) (V c main_v39))) (V c main_v31)) j,
    rows_mm, rows_relu, rows_addRow, blk1_0 V c t, blk1_1 V c t, blk1_2 V c t, pay1]

theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v59).slice (win1_3.rect t)).set ↔ _
  rw [View.set_slice_whole, Rect.mem_set_unit]
  exact Iff.rfl

/-- Row `r` of the result is in the block of point `r / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e6, e7⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]; omega

/-- After the second region its result table holds bias row, clamp and projection of the aggregated table. -/
theorem arr1 (c : Dev nD) :
    (dat1 V c).arrAt 3 cfg1.N
      = mm (a := 50000) (k := 128) (b := 128) (relu (addRow (n := 50000) (d := 128) (V c main_v58) (V c main_v39))) (V c main_v31) :=
  (dat1 V c).arrAt_eq_of_cover 3 _ (fun t _ => flushed1 V c t) cover1

end Cert.KernelIdeal.Dense

end
-- ==== Proof.Region2.lean ====
/-
  The third region: the second layer's bias row and clamp fused with the third layer's projection, on blocks of 5000
  node rows.  Row-local, so the ten blocks written back tile the whole-table function.
-/
import proofs.«144733_j57853209477141_2_alg».proof.Proof.Gen.KernelIdeal.Frame
import proofs.«144733_j57853209477141_2_alg».proof.Proof.Payloads
import Idealize.ShloMosaic.Lib.Pipeline.Value

set_option maxRecDepth 16384

noncomputable section

namespace Cert.KernelIdeal.Dense

open Cert.KernelIdeal Cert.KernelIdeal.Gen Cert.Hand Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten grid points: the aggregated table and the result move together, one block of
    rows per point; the bias row and the weight table stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem le2 (t : Fin cfg2.N) : t.val * 5000 + 5000 ≤ 50000 := by
  have h : t.val < 10 := lt_of_lt_of_eq t.isLt N_2
  omega

/-- Point `t`'s block of the aggregated table is rows 5000 t … 5000 t + 4999 of it. -/
theorem blk2_0 (c : Dev nD) (t : Fin cfg2.N) :
    (iblk2 V c 0 t : Vec Ideal S5000x128 .f32) = rows (N := 50000) (d := 128) 5000 (t.val * 5000) (le2 t) (V c main_v72) := by
  obtain ⟨e0, e1, -⟩ := idx2 t
  funext y
  unfold iblk2 rows
  rw [View.read_apply]
  show V c main_v72 _ = V c main_v72 _
  refine congrArg (V c main_v72) (funext fun a => Fin.ext ?_)
  match a with
  | ⟨0, _⟩ => show win2_0.index t (0 : Fin 2) * 5000 + 1 * (y 0).val = t.val * 5000 + (y 0).val; rw [e0]; omega
  | ⟨1, _⟩ => show win2_0.index t (1 : Fin 2) * 128 + 1 * (y 1).val = (y 1).val; rw [e1]; omega

/-- Every point's block of the bias row is the whole row. -/
theorem blk2_1 (c : Dev nD) (t : Fin cfg2.N) :
    (iblk2 V c 1 t : Vec Ideal S1x128 .f32) = V c main_v40 := by
  obtain ⟨-, -, e2, e3, -⟩ := idx2 t
  funext y
  unfold iblk2
  rw [View.read_apply]
  show V c main_v40 _ = V c main_v40 y
  refine congrArg (V c main_v40) (funext fun a => Fin.ext ?_)
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- Every point's block of the weight table is the whole table. -/
theorem blk2_2 (c : Dev nD) (t : Fin cfg2.N) :
    (iblk2 V c 2 t : Vec Ideal S128x128 .bf16) = V c main_v32 := by
  obtain ⟨-, -, -, -, e4, e5, -⟩ := idx2 t
  funext y
  unfold iblk2
  rw [View.read_apply]
  show V c main_v32 _ = V c main_v32 y
  refine congrArg (V c main_v32) (funext fun a => Fin.ext ?_)
  match a with
  | ⟨0, _⟩ => show win2_2.index t (0 : Fin 2) * 128 + 1 * (y 0).val = (y 0).val; rw [e4]; omega
  | ⟨1, _⟩ => show win2_2.index t (1 : Fin 2) * 128 + 1 * (y 1).val = (y 1).val; rw [e5]; omega

/-- Point `t`'s block of the result table, read off any table, is rows 5000 t … 5000 t + 4999 of it. -/
theorem read2 (t : Fin cfg2.N) (G : S50000x128.Idx → EReal) (j : S5000x128.Idx) :
    G (((cfg2.win 3).blk t).view.emb j) = rows (N := 50000) (d := 128) 5000 (t.val * 5000) (le2 t) G j := by
  obtain ⟨-, -, -, -, -, -, e6, e7⟩ := idx2 t
  unfold rows
  refine congrArg G (funext fun a => Fin.ext ?_)
  match a with
  | ⟨0, _⟩ => show win2_3.index t (0 : Fin 2) * 5000 + 1 * (j 0).val = t.val * 5000 + (j 0).val; rw [e6]; omega
  | ⟨1, _⟩ => show win2_3.index t (1 : Fin 2) * 128 + 1 * (j 1).val = (j 1).val; rw [e7]; omega

/-- What point `t` writes back is its block of rows of the whole-table function. -/
theorem flushed2 (c : Dev nD) (t : Fin cfg2.N) :
    (dat2 V c).flushed 3 t = ((cfg2.win 3).blk t).view.read (Elt Ideal)
      (mm (a := 50000) (k := 128) (b := 128) (relu (addRow (n := 50000) (d := 128) (V c main_v72) (V c main_v40))) (V c main_v32)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  funext j
  show k2_pay1 (iblk2 V c 0 t) (iblk2 V c 1 t) (iblk2 V c 2 t) j
    = mm (a := 50000) (k := 128) (b := 128) (relu (addRow (n := 50000) (d := 128) (V c main_v72) (V c main_v40))) (V c main_v32) (((cfg2.win 3).blk t).view.emb j)
  rw [read2 t (mm (a := 50000) (k := 128) (b := 128) (relu (addRow (n := 50000) (d := 128) (V c main_v72) (V c main_v40))) (V c main_v32)) j,
    rows_mm, rows_relu, rows_addRow, blk2_0 V c t, blk2_1 V c t, blk2_2 V c t, pay2]

theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v73).slice (win2_3.rect t)).set ↔ _
  rw [View.set_slice_whole, Rect.mem_set_unit]
  exact Iff.rfl

/-- Row `r` of the result is in the block of point `r / 5000`. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, e6, e7⟩ := idx2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e7]; omega

/-- After the third region its result table holds bias row, clamp and projection of the aggregated table. -/
theorem arr2 (c : Dev nD) :
    (dat2 V c).arrAt 3 cfg2.N
      = mm (a := 50000) (k := 128) (b := 128) (relu (addRow (n := 50000) (d := 128) (V c main_v72) (V c main_v40))) (V c main_v32) :=
  (dat2 V c).arrAt_eq_of_cover 3 _ (fun t _ => flushed2 V c t) cover2

end Cert.KernelIdeal.Dense

end
-- ==== Proof.Region3.lean ====
/-
  The fourth region: the question table times its projection's weight table, in one grid point whose blocks are the whole
  tables.
-/
import proofs.«144733_j57853209477141_2_alg».proof.Proof.Gen.KernelIdeal.Frame
import proofs.«144733_j57853209477141_2_alg».proof.Proof.Payloads
import Idealize.ShloMosaic.Lib.Pipeline.Value

set_option maxRecDepth 16384

noncomputable section

namespace Cert.KernelIdeal.Dense

open Cert.KernelIdeal Cert.KernelIdeal.Gen Cert.Hand Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps at the one grid point: every window sits at block (0, 0). -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- The block of the question table is the whole table. -/
theorem blk3_0 (c : Dev nD) (t : Fin cfg3.N) :
    (iblk3 V c 0 t : Vec Ideal S64x768 .f32) = V c main_arg3 := by
  obtain ⟨e0, e1, -⟩ := idx3 t
  funext y
  unfold iblk3
  rw [View.read_apply]
  show V c main_arg3 _ = V c main_arg3 y
  refine congrArg (V c main_arg3) (funext fun a => Fin.ext ?_)
  match a with
  | ⟨0, _⟩ => show win3_0.index t (0 : Fin 2) * 64 + 1 * (y 0).val = (y 0).val; rw [e0]; omega
  | ⟨1, _⟩ => show win3_0.index t (1 : Fin 2) * 768 + 1 * (y 1).val = (y 1).val; rw [e1]; omega

/-- The block of the weight table is the whole table. -/
theorem blk3_1 (c : Dev nD) (t : Fin cfg3.N) :
    (iblk3 V c 1 t : Vec Ideal S768x128 .bf16) = V c main_v33 := by
  obtain ⟨-, -, e2, e3, -⟩ := idx3 t
  funext y
  unfold iblk3
  rw [View.read_apply]
  show V c main_v33 _ = V c main_v33 y
  refine congrArg (V c main_v33) (funext fun a => Fin.ext ?_)
  match a with
  | ⟨0, _⟩ => show win3_1.index t (0 : Fin 2) * 768 + 1 * (y 0).val = (y 0).val; rw [e2]; omega
  | ⟨1, _⟩ => show win3_1.index t (1 : Fin 2) * 128 + 1 * (y 1).val = (y 1).val; rw [e3]; omega

/-- The block of the result table, read off any table, is the table. -/
theorem read3 (t : Fin cfg3.N) (G : S64x128.Idx → EReal) (j : S64x128.Idx) :
    G (((cfg3.win 2).blk t).view.emb j) = G j := by
  obtain ⟨-, -, -, -, e4, e5⟩ := idx3 t
  refine congrArg G (funext fun a => Fin.ext ?_)
  match a with
  | ⟨0, _⟩ => show win3_2.index t (0 : Fin 2) * 64 + 1 * (j 0).val = (j 0).val; rw [e4]; omega
  | ⟨1, _⟩ => show win3_2.index t (1 : Fin 2) * 128 + 1 * (j 1).val = (j 1).val; rw [e5]; omega

/-- What the one point writes back is the whole product. -/
theorem flushed3 (c : Dev nD) (t : Fin cfg3.N) :
    (dat3 V c).flushed 2 t = ((cfg3.win 2).blk t).view.read (Elt Ideal) (mm (a := 64) (k := 768) (b := 128) (V c main_arg3) (V c main_v33)) := by
  show (cfg3.win 2).cut (grid3.coords t) ((dat3 V c).after 2 t) = _
  rw [after3_2]
  unfold out3_2
  rw [View.canon_unit_zero hz]
  simp only [View.ld_unit_zero (S := S64x768) hz, View.ld_unit_zero (S := S768x128) hz]
  funext j
  show k3_pay1 (iblk3 V c 0 t) (iblk3 V c 1 t) j = mm (a := 64) (k := 768) (b := 128) (V c main_arg3) (V c main_v33) (((cfg3.win 2).blk t).view.emb j)
  rw [read3 t (mm (a := 64) (k := 768) (b := 128) (V c main_arg3) (V c main_v33)) j, blk3_0 V c t, blk3_1 V c t, pay3]

theorem mem_blk3 (t : Fin cfg3.N) (i : S64x128.Idx) :
    i ∈ ((cfg3.win 2).blk t).view.set ↔ ∀ a : Fin 2, win3_2.index t a * S64x128.size a ≤ (i a).val ∧ (i a).val < win3_2.index t a * S64x128.size a + S64x128.size a := by
  show i ∈ ((View.whole main_v87).slice (win3_2.rect t)).set ↔ _
  rw [View.set_slice_whole, Rect.mem_set_unit]
  exact Iff.rfl

/-- Every entry of the result is in the one point's block. -/
theorem cover3 (i : S64x128.Idx) : ∃ t : Fin cfg3.N, (cfg3.win 2).flush t = true ∧ i ∈ ((cfg3.win 2).blk t).view.set := by
  have hi0 : (i 0).val < 64 := (i 0).isLt
  have hi1 : (i 1).val < 128 := (i 1).isLt
  obtain ⟨-, -, -, -, e4, e5⟩ := idx3 t3_0
  refine ⟨t3_0, flush3_2 _, ?_⟩
  rw [mem_blk3]
  intro a
  match a with
  | ⟨0, _⟩ =>
    show win3_2.index t3_0 (0 : Fin 2) * 64 ≤ (i 0).val ∧ (i 0).val < win3_2.index t3_0 (0 : Fin 2) * 64 + 64
    rw [e4]; omega
  | ⟨1, _⟩ =>
    show win3_2.index t3_0 (1 : Fin 2) * 128 ≤ (i 1).val ∧ (i 1).val < win3_2.index t3_0 (1 : Fin 2) * 128 + 128
    rw [e5]; omega

/-- After the fourth region its result table holds the question table times the weight table. -/
theorem arr3 (c : Dev nD) :
    (dat3 V c).arrAt 2 cfg3.N = mm (a := 64) (k := 768) (b := 128) (V c main_arg3) (V c main_v33) :=
  (dat3 V c).arrAt_eq_of_cover 2 _ (fun t _ => flushed3 V c t) cover3

end Cert.KernelIdeal.Dense

end
-- ==== Proof.Region4.lean ====
/-
  The fifth region: the question projection's bias row and clamp, in one grid point whose blocks are the whole tables.
-/
import proofs.«144733_j57853209477141_2_alg».proof.Proof.Gen.KernelIdeal.Frame
import proofs.«144733_j57853209477141_2_alg».proof.Proof.Payloads
import Idealize.ShloMosaic.Lib.Pipeline.Value

set_option maxRecDepth 16384

noncomputable section

namespace Cert.KernelIdeal.Dense

open Cert.KernelIdeal Cert.KernelIdeal.Gen Cert.Hand Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps at the one grid point: every window sits at block (0, 0). -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The block of the projected question table is the whole table. -/
theorem blk4_0 (c : Dev nD) (t : Fin cfg4.N) :
    (iblk4 V c 0 t : Vec Ideal S64x128 .f32) = V c main_v87 := by
  obtain ⟨e0, e1, -⟩ := idx4 t
  funext y
  unfold iblk4
  rw [View.read_apply]
  show V c main_v87 _ = V c main_v87 y
  refine congrArg (V c main_v87) (funext fun a => Fin.ext ?_)
  match a with
  | ⟨0, _⟩ => show win4_0.index t (0 : Fin 2) * 64 + 1 * (y 0).val = (y 0).val; rw [e0]; omega
  | ⟨1, _⟩ => show win4_0.index t (1 : Fin 2) * 128 + 1 * (y 1).val = (y 1).val; rw [e1]; omega

/-- The block of the bias row is the whole row. -/
theorem blk4_1 (c : Dev nD) (t : Fin cfg4.N) :
    (iblk4 V c 1 t : Vec Ideal S1x128 .f32) = V c main_v42 := by
  obtain ⟨-, -, e2, e3, -⟩ := idx4 t
  funext y
  unfold iblk4
  rw [View.read_apply]
  show V c main_v42 _ = V c main_v42 y
  refine congrArg (V c main_v42) (funext fun a => Fin.ext ?_)
  match a with
  | ⟨0, _⟩ => show win4_1.index t (0 : Fin 2) * 1 + 1 * (y 0).val = (y 0).val; rw [e2]; omega
  | ⟨1, _⟩ => show win4_1.index t (1 : Fin 2) * 128 + 1 * (y 1).val = (y 1).val; rw [e3]; omega

/-- The block of the result table, read off any table, is the table. -/
theorem read4 (t : Fin cfg4.N) (G : S64x128.Idx → EReal) (j : S64x128.Idx) :
    G (((cfg4.win 2).blk t).view.emb j) = G j := by
  obtain ⟨-, -, -, -, e4, e5⟩ := idx4 t
  refine congrArg G (funext fun a => Fin.ext ?_)
  match a with
  | ⟨0, _⟩ => show win4_2.index t (0 : Fin 2) * 64 + 1 * (j 0).val = (j 0).val; rw [e4]; omega
  | ⟨1, _⟩ => show win4_2.index t (1 : Fin 2) * 128 + 1 * (j 1).val = (j 1).val; rw [e5]; omega

/-- What the one point writes back is the whole biased and clamped table. -/
theorem flushed4 (c : Dev nD) (t : Fin cfg4.N) :
    (dat4 V c).flushed 2 t = ((cfg4.win 2).blk t).view.read (Elt Ideal) (relu (addRow (n := 64) (d := 128) (V c main_v87) (V c main_v42))) := by
  show (cfg4.win 2).cut (grid4.coords t) ((dat4 V c).after 2 t) = _
  rw [after4_2]
  unfold out4_2
  rw [View.canon_unit_zero hz]
  simp only [View.ld_unit_zero (S := S64x128) hz, View.ld_unit_zero (S := S1x128) hz]
  funext j
  show k4_pay1 (iblk4 V c 0 t) (iblk4 V c 1 t) j = relu (addRow (n := 64) (d := 128) (V c main_v87) (V c main_v42)) (((cfg4.win 2).blk t).view.emb j)
  rw [read4 t (relu (addRow (n := 64) (d := 128) (V c main_v87) (V c main_v42))) j, blk4_0 V c t, blk4_1 V c t, pay4]

theorem mem_blk4 (t : Fin cfg4.N) (i : S64x128.Idx) :
    i ∈ ((cfg4.win 2).blk t).view.set ↔ ∀ a : Fin 2, win4_2.index t a * S64x128.size a ≤ (i a).val ∧ (i a).val < win4_2.index t a * S64x128.size a + S64x128.size a := by
  show i ∈ ((View.whole main_v88).slice (win4_2.rect t)).set ↔ _
  rw [View.set_slice_whole, Rect.mem_set_unit]
  exact Iff.rfl

/-- Every entry of the result is in the one point's block. -/
theorem cover4 (i : S64x128.Idx) : ∃ t : Fin cfg4.N, (cfg4.win 2).flush t = true ∧ i ∈ ((cfg4.win 2).blk t).view.set := by
  have hi0 : (i 0).val < 64 := (i 0).isLt
  have hi1 : (i 1).val < 128 := (i 1).isLt
  obtain ⟨-, -, -, -, e4, e5⟩ := idx4 t4_0
  refine ⟨t4_0, flush4_2 _, ?_⟩
  rw [mem_blk4]
  intro a
  match a with
  | ⟨0, _⟩ =>
    show win4_2.index t4_0 (0 : Fin 2) * 64 ≤ (i 0).val ∧ (i 0).val < win4_2.index t4_0 (0 : Fin 2) * 64 + 64
    rw [e4]; omega
  | ⟨1, _⟩ =>
    show win4_2.index t4_0 (1 : Fin 2) * 128 ≤ (i 1).val ∧ (i 1).val < win4_2.index t4_0 (1 : Fin 2) * 128 + 128
    rw [e5]; omega

/-- After the fifth region its result table holds the projected question table with its bias row added and clamped. -/
theorem arr4 (c : Dev nD) :
    (dat4 V c).arrAt 2 cfg4.N = relu (addRow (n := 64) (d := 128) (V c main_v87) (V c main_v42)) :=
  (dat4 V c).arrAt_eq_of_cover 2 _ (fun t _ => flushed4 V c t) cover4

end Cert.KernelIdeal.Dense

end
-- ==== Proof.Region5.lean ====
/-
  The sixth region: the dense tail (last layer's bias row and clamp, the fused projection's two halves, its bias row and
  clamp, the output projection and its bias row) on blocks of 5000 node rows.  Row-local, so the ten blocks written back
  tile the whole-table function.
-/
import proofs.«144733_j57853209477141_2_alg».proof.Proof.Gen.KernelIdeal.Frame
import proofs.«144733_j57853209477141_2_alg».proof.Proof.Payloads
import Idealize.ShloMosaic.Lib.Pipeline.Value

set_option maxRecDepth 16384

noncomputable section

namespace Cert.KernelIdeal.Dense

open Cert.KernelIdeal Cert.KernelIdeal.Gen Cert.Hand Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten grid points: the aggregated table, the gathered question rows and the result move
    together, one block of rows per point; the bias rows and the weight tables stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

theorem le5 (t : Fin cfg5.N) : t.val * 5000 + 5000 ≤ 50000 := by
  have h : t.val < 10 := lt_of_lt_of_eq t.isLt N_5
  omega

/-- Point `t`'s block of the aggregated table is rows 5000 t … 5000 t + 4999 of it. -/
theorem blk5_0 (c : Dev nD) (t : Fin cfg5.N) :
    (iblk5 V c 0 t : Vec Ideal S5000x128 .f32) = rows (N := 50000) (d := 128) 5000 (t.val * 5000) (le5 t) (V c main_v86) := by
  obtain ⟨e0, e1, -⟩ := idx5 t
  funext y
  unfold iblk5 rows
  rw [View.read_apply]
  show V c main_v86 _ = V c main_v86 _
  refine congrArg (V c main_v86) (funext fun a => Fin.ext ?_)
  match a with
  | ⟨0, _⟩ => show win5_0.index t (0 : Fin 2) * 5000 + 1 * (y 0).val = t.val * 5000 + (y 0).val; rw [e0]; omega
  | ⟨1, _⟩ => show win5_0.index t (1 : Fin 2) * 128 + 1 * (y 1).val = (y 1).val; rw [e1]; omega

/-- Every point's block of the last layer's bias row is the whole row. -/
theorem blk5_1 (c : Dev nD) (t : Fin cfg5.N) :
    (iblk5 V c 1 t : Vec Ideal S1x128 .f32) = V c main_v41 := by
  obtain ⟨-, -, e2, e3, -⟩ := idx5 t
  funext y
  unfold iblk5
  rw [View.read_apply]
  show V c main_v41 _ = V c main_v41 y
  refine congrArg (V c main_v41) (funext fun a => Fin.ext ?_)
  match a with
  | ⟨0, _⟩ => show win5_1.index t (0 : Fin 2) * 1 + 1 * (y 0).val = (y 0).val; rw [e2]; omega
  | ⟨1, _⟩ => show win5_1.index t (1 : Fin 2) * 128 + 1 * (y 1).val = (y 1).val; rw [e3]; omega

/-- Point `t`'s block of the gathered question rows is rows 5000 t … 5000 t + 4999 of them. -/
theorem blk5_2 (c : Dev nD) (t : Fin cfg5.N) :
    (iblk5 V c 2 t : Vec Ideal S5000x128 .f32) = rows (N := 50000) (d := 128) 5000 (t.val * 5000) (le5 t) (V c main_v95) := by
  obtain ⟨-, -, -, -, e4, e5, -⟩ := idx5 t
  funext y
  unfold iblk5 rows
  rw [View.read_apply]
  show V c main_v95 _ = V c main_v95 _
  refine congrArg (V c main_v95) (funext fun a => Fin.ext ?_)
  match a with
  | ⟨0, _⟩ => show win5_2.index t (0 : Fin 2) * 5000 + 1 * (y 0).val = t.val * 5000 + (y 0).val; rw [e4]; omega
  | ⟨1, _⟩ => show win5_2.index t (1 : Fin 2) * 128 + 1 * (y 1).val = (y 1).val; rw [e5]; omega

/-- Every point's block of the node half of the fused weight table is the whole table. -/
theorem blk5_3 (c : Dev nD) (t : Fin cfg5.N) :
    (iblk5 V c 3 t : Vec Ideal S128x128 .bf16) = V c main_v35 := by
  obtain ⟨-, -, -, -, -, -, e6, e7, -⟩ := idx5 t
  funext y
  unfold iblk5
  rw [View.read_apply]
  show V c main_v35 _ = V c main_v35 y
  refine congrArg (V c main_v35) (funext fun a => Fin.ext ?_)
  match a with
  | ⟨0, _⟩ => show win5_3.index t (0 : Fin 2) * 128 + 1 * (y 0).val = (y 0).val; rw [e6]; omega
  | ⟨1, _⟩ => show win5_3.index t (1 : Fin 2) * 128 + 1 * (y 1).val = (y 1).val; rw [e7]; omega

/-- Every point's block of the question half of the fused weight table is the whole table. -/
theorem blk5_4 (c : Dev nD) (t : Fin cfg5.N) :
    (iblk5 V c 4 t : Vec Ideal S128x128 .bf16) = V c main_v37 := by
  obtain ⟨-, -, -, -, -, -, -, -, e8, e9, -⟩ := idx5 t
  funext y
  unfold iblk5
  rw [View.read_apply]
  show V c main_v37 _ = V c main_v37 y
  refine congrArg (V c main_v37) (funext fun a => Fin.ext ?_)
  match a with
  | ⟨0, _⟩ => show win5_4.index t (0 : Fin 2) * 128 + 1 * (y 0).val = (y 0).val; rw [e8]; omega
  | ⟨1, _⟩ => show win5_4.index t (1 : Fin 2) * 128 + 1 * (y 1).val = (y 1).val; rw [e9]; omega

/-- Every point's block of the fused projection's bias row is the whole row. -/
theorem blk5_5 (c : Dev nD) (t : Fin cfg5.N) :
    (iblk5 V c 5 t : Vec Ideal S1x128 .f32) = V c main_v43 := by
  obtain ⟨-, -, -, -, -, -, -, -, -, -, e10, e11, -⟩ := idx5 t
  funext y
  unfold iblk5
  rw [View.read_apply]
  show V c main_v43 _ = V c main_v43 y
  refine congrArg (V c main_v43) (funext fun a => Fin.ext ?_)
  match a with
  | ⟨0, _⟩ => show win5_5.index t (0 : Fin 2) * 1 + 1 * (y 0).val = (y 0).val; rw [e10]; omega
  | ⟨1, _⟩ => show win5_5.index t (1 : Fin 2) * 128 + 1 * (y 1).val = (y 1).val; rw [e11]; omega

/-- Every point's block of the output weight table is the whole table. -/
theorem blk5_6 (c : Dev nD) (t : Fin cfg5.N) :
    (iblk5 V c 6 t : Vec Ideal S128x32 .bf16) = V c main_v38 := by
  obtain ⟨-, -, -, -, -, -, -, -, -, -, -, -, e12, e13, -⟩ := idx5 t
  funext y
  unfold iblk5
  rw [View.read_apply]
  show V c main_v38 _ = V c main_v38 y
  refine congrArg (V c main_v38) (funext fun a => Fin.ext ?_)
  match a with
  | ⟨0, _⟩ => show win5_6.index t (0 : Fin 2) * 128 + 1 * (y 0).val = (y 0).val; rw [e12]; omega
  | ⟨1, _⟩ => show win5_6.index t (1 : Fin 2) * 32 + 1 * (y 1).val = (y 1).val; rw [e13]; omega

/-- Every point's block of the output bias row is the whole row. -/
theorem blk5_7 (c : Dev nD) (t : Fin cfg5.N) :
    (iblk5 V c 7 t : Vec Ideal S1x32 .f32) = V c main_v44 := by
  obtain ⟨-, -, -, -, -, -, -, -, -, -, -, -, -, -, e14, e15, -⟩ := idx5 t
  funext y
  unfold iblk5
  rw [View.read_apply]
  show V c main_v44 _ = V c main_v44 y
  refine congrArg (V c main_v44) (funext fun a => Fin.ext ?_)
  match a with
  | ⟨0, _⟩ => show win5_7.index t (0 : Fin 2) * 1 + 1 * (y 0).val = (y 0).val; rw [e14]; omega
  | ⟨1, _⟩ => show win5_7.index t (1 : Fin 2) * 32 + 1 * (y 1).val = (y 1).val; rw [e15]; omega

/-- Point `t`'s block of the result table, read off any table, is rows 5000 t … 5000 t + 4999 of it. -/
theorem read5 (t : Fin cfg5.N) (G : S50000x32.Idx → EReal) (j : S5000x32.Idx) :
    G (((cfg5.win 8).blk t).view.emb j) = rows (N := 50000) (d := 32) 5000 (t.val * 5000) (le5 t) G j := by
  obtain ⟨-, -, -, -, -, -, -, -, -, -, -, -, -, -, -, -, e16, e17⟩ := idx5 t
  unfold rows
  refine congrArg G (funext fun a => Fin.ext ?_)
  match a with
  | ⟨0, _⟩ => show win5_8.index t (0 : Fin 2) * 5000 + 1 * (j 0).val = t.val * 5000 + (j 0).val; rw [e16]; omega
  | ⟨1, _⟩ => show win5_8.index t (1 : Fin 2) * 32 + 1 * (j 1).val = (j 1).val; rw [e17]; omega

/-- What point `t` writes back is its block of rows of the whole-table dense tail. -/
theorem flushed5 (c : Dev nD) (t : Fin cfg5.N) :
    (dat5 V c).flushed 8 t = ((cfg5.win 8).blk t).view.read (Elt Ideal)
      (tail (n := 50000) (V c main_v86) (V c main_v41) (V c main_v95) (V c main_v35) (V c main_v37) (V c main_v43) (V c main_v38) (V c main_v44)) := by
  show (cfg5.win 8).cut (grid5.coords t) ((dat5 V c).after 8 t) = _
  rw [after5_8]
  unfold out5_8
  rw [View.canon_unit_zero hz]
  simp only [View.ld_unit_zero (S := S5000x128) hz, View.ld_unit_zero (S := S1x128) hz, View.ld_unit_zero (S := S128x128) hz,
    View.ld_unit_zero (S := S128x32) hz, View.ld_unit_zero (S := S1x32) hz]
  funext j
  show k5_pay1 (iblk5 V c 0 t) (iblk5 V c 1 t) (iblk5 V c 2 t) (iblk5 V c 3 t) (iblk5 V c 4 t) (iblk5 V c 5 t) (iblk5 V c 6 t) (iblk5 V c 7 t) j
    = tail (n := 50000) (V c main_v86) (V c main_v41) (V c main_v95) (V c main_v35) (V c main_v37) (V c main_v43) (V c main_v38) (V c main_v44) (((cfg5.win 8).blk t).view.emb j)
  rw [read5 t (tail (n := 50000) (V c main_v86) (V c main_v41) (V c main_v95) (V c main_v35) (V c main_v37) (V c main_v43) (V c main_v38) (V c main_v44)) j,
    rows_tail, blk5_0 V c t, blk5_1 V c t, blk5_2 V c t, blk5_3 V c t, blk5_4 V c t, blk5_5 V c t, blk5_6 V c t, blk5_7 V c t, pay5]

theorem mem_blk5 (t : Fin cfg5.N) (i : S50000x32.Idx) :
    i ∈ ((cfg5.win 8).blk t).view.set ↔ ∀ a : Fin 2, win5_8.index t a * S5000x32.size a ≤ (i a).val ∧ (i a).val < win5_8.index t a * S5000x32.size a + S5000x32.size a := by
  show i ∈ ((View.whole main_v96).slice (win5_8.rect t)).set ↔ _
  rw [View.set_slice_whole, Rect.mem_set_unit]
  exact Iff.rfl

/-- Row `r` of the result is in the block of point `r / 5000`. -/
theorem cover5 (i : S50000x32.Idx) : ∃ t : Fin cfg5.N, (cfg5.win 8).flush t = true ∧ i ∈ ((cfg5.win 8).blk t).view.set := by
  have hi0 : (i 0).val < 50000 := (i 0).isLt
  have hi1 : (i 1).val < 32 := (i 1).isLt
  have hN : cfg5.N = 10 := N_5
  have ht : (i 0).val / 5000 < cfg5.N := by rw [hN]; omega
  obtain ⟨-, -, -, -, -, -, -, -, -, -, -, -, -, -, -, -, e16, e17⟩ := idx5 ⟨(i 0).val / 5000, ht⟩
  refine ⟨⟨(i 0).val / 5000, ht⟩, flush5_8 _, ?_⟩
  rw [mem_blk5]
  intro a
  match a with
  | ⟨0, _⟩ =>
    show win5_8.index ⟨(i 0).val / 5000, ht⟩ (0 : Fin 2) * 5000 ≤ (i 0).val ∧ (i 0).val < win5_8.index ⟨(i 0).val / 5000, ht⟩ (0 : Fin 2) * 5000 + 5000
    rw [e16]; show (i 0).val / 5000 * 5000 ≤ (i 0).val ∧ (i 0).val < (i 0).val / 5000 * 5000 + 5000; omega
  | ⟨1, _⟩ =>
    show win5_8.index ⟨(i 0).val / 5000, ht⟩ (1 : Fin 2) * 32 ≤ (i 1).val ∧ (i 1).val < win5_8.index ⟨(i 0).val / 5000, ht⟩ (1 : Fin 2) * 32 + 32
    rw [e17]; omega

/-- After the sixth region its result table holds the dense tail of its operands. -/
theorem arr5 (c : Dev nD) :
    (dat5 V c).arrAt 8 cfg5.N
      = tail (n := 50000) (V c main_v86) (V c main_v41) (V c main_v95) (V c main_v35) (V c main_v37) (V c main_v43) (V c main_v38) (V c main_v44) :=
  (dat5 V c).arrAt_eq_of_cover 8 _ (fun t _ => flushed5 V c t) cover5

end Cert.KernelIdeal.Dense

end
-- ==== Proof.Fold.lean ====
/-
  The fold through the program, from the launch to the result.  At each boundary the table the next segment reads holds the
  reference's stage of the same name-free mathematics: the edge tables and weights after the first stretch; after each
  region the dense piece it computes (by the region's whole-table function and the reference's stage being the same dense
  piece); after each gather / scale / sum stretch the reference's aggregated table; and at the end the dense tail, which is
  the reference's result.
-/
import proofs.«144733_j57853209477141_2_alg».proof.Proof.Keep
import proofs.«144733_j57853209477141_2_alg».proof.Proof.Stretches
import proofs.«144733_j57853209477141_2_alg».proof.Proof.Region0
import proofs.«144733_j57853209477141_2_alg».proof.Proof.Region1
import proofs.«144733_j57853209477141_2_alg».proof.Proof.Region2
import proofs.«144733_j57853209477141_2_alg».proof.Proof.Region3
import proofs.«144733_j57853209477141_2_alg».proof.Proof.Region4
import proofs.«144733_j57853209477141_2_alg».proof.Proof.Region5

set_option maxRecDepth 16384

noncomputable section

namespace Cert.KernelIdeal.Whole

open Cert.KernelIdeal Cert.KernelIdeal.Gen Cert.ReferenceIdeal.ReadP Cert.Hand Cert.KernelIdeal.Dense
open Idealize.ShloMosaic Idealize.ShloMosaic.TcCoe Idealize.SL.Sem

variable (m : (ℓ : Loc nD τ sig) → Buf (Elt Ideal) ℓ) (ρ : Dev nD → PrngReg) (c : Dev nD)

/-- The launched contents of argument table 0. -/
abbrev L0 := m ((c : Thread nD τ).loc main_arg0)
/-- The launched contents of argument table 1. -/
abbrev L1 := m ((c : Thread nD τ).loc main_arg1)
/-- The launched contents of argument table 2. -/
abbrev L2 := m ((c : Thread nD τ).loc main_arg2)
/-- The launched contents of argument table 3. -/
abbrev L3 := m ((c : Thread nD τ).loc main_arg3)
/-- The launched contents of argument table 4. -/
abbrev L4 := m ((c : Thread nD τ).loc main_arg4)
/-- The launched contents of argument table 5. -/
abbrev L5 := m ((c : Thread nD τ).loc main_arg5)
/-- The launched contents of argument table 6. -/
abbrev L6 := m ((c : Thread nD τ).loc main_arg6)
/-- The launched contents of argument table 7. -/
abbrev L7 := m ((c : Thread nD τ).loc main_arg7)
/-- The launched contents of argument table 8. -/
abbrev L8 := m ((c : Thread nD τ).loc main_arg8)
/-- The launched contents of argument table 9. -/
abbrev L9 := m ((c : Thread nD τ).loc main_arg9)
/-- The launched contents of argument table 10. -/
abbrev L10 := m ((c : Thread nD τ).loc main_arg10)
/-- The launched contents of argument table 11. -/
abbrev L11 := m ((c : Thread nD τ).loc main_arg11)
/-- The launched contents of argument table 12. -/
abbrev L12 := m ((c : Thread nD τ).loc main_arg12)
/-- The launched contents of argument table 13. -/
abbrev L13 := m ((c : Thread nD τ).loc main_arg13)
/-- The launched contents of argument table 14. -/
abbrev L14 := m ((c : Thread nD τ).loc main_arg14)
/-- The launched contents of argument table 15. -/
abbrev L15 := m ((c : Thread nD τ).loc main_arg15)

/-! ## Before the first region: the edge tables, the weights, the bias rows -/

theorem a1_v3 : W1 m ρ c (Proc.devRef .tc main_v3) = val_main_v3 (F := Ideal) (L1 m c) := s0_v3 (W0 m ρ c)
theorem a1_v6 : W1 m ρ c (Proc.devRef .tc main_v6) = val_main_v6 (F := Ideal) (L1 m c) := s0_v6 (W0 m ρ c)
theorem a1_v12 : W1 m ρ c (Proc.devRef .tc main_v12) = val_main_v12 (F := Ideal) (L1 m c) := s0_v12 (W0 m ρ c)
theorem a1_v13 : W1 m ρ c (Proc.devRef .tc main_v13) = val_main_v13 (F := Ideal) (L1 m c) := s0_v13 (W0 m ρ c)
theorem a1_cst_2 : W1 m ρ c (Proc.devRef .tc main_cst_2) = val_main_cst_2 (F := Ideal) := s0_cst_2 (W0 m ρ c)

theorem a2_v14 : W2 m ρ c (Proc.devRef .tc main_v14) = val_main_v14 (F := Ideal) (L1 m c) :=
  s1_v14 (W1 m ρ c) (L1 m c) (a1_v12 m ρ c) (a1_v13 m ρ c) (a1_cst_2 m ρ c)
theorem a2_v3 : W2 m ρ c (Proc.devRef .tc main_v3) = val_main_v3 (F := Ideal) (L1 m c) :=
  (keep2 m ρ c main_v3 (by decide)).trans (a1_v3 m ρ c)
theorem a2_v6 : W2 m ρ c (Proc.devRef .tc main_v6) = val_main_v6 (F := Ideal) (L1 m c) :=
  (keep2 m ρ c main_v6 (by decide)).trans (a1_v6 m ρ c)

theorem a3_v3 : W3 m ρ c (Proc.devRef .tc main_v3) = val_main_v3 (F := Ideal) (L1 m c) :=
  (keep3 m ρ c main_v3 (by decide)).trans (a2_v3 m ρ c)
theorem a3_v6 : W3 m ρ c (Proc.devRef .tc main_v6) = val_main_v6 (F := Ideal) (L1 m c) :=
  (keep3 m ρ c main_v6 (by decide)).trans (a2_v6 m ρ c)
theorem a3_v29 : W3 m ρ c (Proc.devRef .tc main_v29) = val_main_v29 (F := Ideal) (L1 m c) :=
  s2_v29 (W2 m ρ c) (L1 m c) (a2_v3 m ρ c) (a2_v6 m ρ c) (a2_v14 m ρ c)

theorem a3_v30 : (W3 m ρ c (Proc.devRef .tc main_v30) : S128x128.Idx → EReal) = (L4 m c) :=
  (s2_v30 (W2 m ρ c)).trans (launched2 m ρ c main_arg4 (by decide) (by decide))
theorem a3_v31 : (W3 m ρ c (Proc.devRef .tc main_v31) : S128x128.Idx → EReal) = (L6 m c) :=
  (s2_v31 (W2 m ρ c)).trans (launched2 m ρ c main_arg6 (by decide) (by decide))
theorem a3_v32 : (W3 m ρ c (Proc.devRef .tc main_v32) : S128x128.Idx → EReal) = (L8 m c) :=
  (s2_v32 (W2 m ρ c)).trans (launched2 m ρ c main_arg8 (by decide) (by decide))
theorem a3_v33 : (W3 m ρ c (Proc.devRef .tc main_v33) : S768x128.Idx → EReal) = (L10 m c) :=
  (s2_v33 (W2 m ρ c)).trans (launched2 m ρ c main_arg10 (by decide) (by decide))
theorem a3_v35 : (W3 m ρ c (Proc.devRef .tc main_v35) : S128x128.Idx → EReal)
    = extractStridedSlice S128x128 ![0, 0] ((L12 m c) : S256x128.Idx → EReal) slices_S256x128_S128x128_0_0 :=
  (s2_v35 (W2 m ρ c)).trans (congrArg (fun t : S256x128.Idx → EReal => extractStridedSlice S128x128 ![0, 0] t slices_S256x128_S128x128_0_0)
    (launched2 m ρ c main_arg12 (by decide) (by decide)))
theorem a3_v37 : (W3 m ρ c (Proc.devRef .tc main_v37) : S128x128.Idx → EReal)
    = extractStridedSlice S128x128 ![128, 0] ((L12 m c) : S256x128.Idx → EReal) slices_S256x128_S128x128_128_0 :=
  (s2_v37 (W2 m ρ c)).trans (congrArg (fun t : S256x128.Idx → EReal => extractStridedSlice S128x128 ![128, 0] t slices_S256x128_S128x128_128_0)
    (launched2 m ρ c main_arg12 (by decide) (by decide)))
theorem a3_v38 : (W3 m ρ c (Proc.devRef .tc main_v38) : S128x32.Idx → EReal) = (L14 m c) :=
  (s2_v38 (W2 m ρ c)).trans (launched2 m ρ c main_arg14 (by decide) (by decide))

theorem a3_v39 : (W3 m ρ c (Proc.devRef .tc main_v39) : S1x128.Idx → EReal) = oneRow ((L5 m c) : S128.Idx → EReal) :=
  (s2_v39 (W2 m ρ c)).trans (congrArg (fun t : S128.Idx → EReal => oneRow t) (launched2 m ρ c main_arg5 (by decide) (by decide)))
theorem a3_v40 : (W3 m ρ c (Proc.devRef .tc main_v40) : S1x128.Idx → EReal) = oneRow ((L7 m c) : S128.Idx → EReal) :=
  (s2_v40 (W2 m ρ c)).trans (congrArg (fun t : S128.Idx → EReal => oneRow t) (launched2 m ρ c main_arg7 (by decide) (by decide)))
theorem a3_v41 : (W3 m ρ c (Proc.devRef .tc main_v41) : S1x128.Idx → EReal) = oneRow ((L9 m c) : S128.Idx → EReal) :=
  (s2_v41 (W2 m ρ c)).trans (congrArg (fun t : S128.Idx → EReal => oneRow t) (launched2 m ρ c main_arg9 (by decide) (by decide)))
theorem a3_v42 : (W3 m ρ c (Proc.devRef .tc main_v42) : S1x128.Idx → EReal) = oneRow ((L11 m c) : S128.Idx → EReal) :=
  (s2_v42 (W2 m ρ c)).trans (congrArg (fun t : S128.Idx → EReal => oneRow t) (launched2 m ρ c main_arg11 (by decide) (by decide)))
theorem a3_v43 : (W3 m ρ c (Proc.devRef .tc main_v43) : S1x128.Idx → EReal) = oneRow ((L13 m c) : S128.Idx → EReal) :=
  (s2_v43 (W2 m ρ c)).trans (congrArg (fun t : S128.Idx → EReal => oneRow t) (launched2 m ρ c main_arg13 (by decide) (by decide)))
theorem a3_v44 : (W3 m ρ c (Proc.devRef .tc main_v44) : S1x32.Idx → EReal) = oneRow ((L15 m c) : S32.Idx → EReal) :=
  (s2_v44 (W2 m ρ c)).trans (congrArg (fun t : S32.Idx → EReal => oneRow t) (launched2 m ρ c main_arg15 (by decide) (by decide)))

/-! ## The three layers -/

/-- After the first region: the first layer's projection. -/
theorem a4_v45 : W4 m ρ c (Proc.devRef .tc main_v45) = val_main_v30 (F := Ideal) (L0 m c) (L4 m c) := by
  rw [Cert.ReferenceIdeal.Stages.v30_eq]
  refine (W4_arr m ρ c 2).trans ((arr0 (V3 m ρ) c).trans ?_)
  show mm (a := 50000) (k := 128) (b := 128) (W3 m ρ c (Proc.devRef .tc main_arg0)) (W3 m ρ c (Proc.devRef .tc main_v30)) = _
  rw [launched3 m ρ c main_arg0 (by decide) (by decide) (by decide), a3_v30 m ρ c]

/-- After the first round of message passing: the first layer's aggregated table. -/
theorem a5_v58 : W5 m ρ c (Proc.devRef .tc main_v58) = val_main_v43 (F := Ideal) (L0 m c) (L1 m c) (L4 m c) :=
  s_round1 (W4 m ρ c) (L0 m c) (L1 m c) (L4 m c) (a4_v45 m ρ c)
    ((keep4 m ρ c main_v3 (by decide)).trans (a3_v3 m ρ c))
    ((keep4 m ρ c main_v6 (by decide)).trans (a3_v6 m ρ c))
    ((keep4 m ρ c main_v29 (by decide)).trans (a3_v29 m ρ c))

/-- After the second region: the second layer's projection of the first layer's output. -/
theorem a6_v59 : W6 m ρ c (Proc.devRef .tc main_v59) = val_main_v48 (F := Ideal) (L0 m c) (L1 m c) (L4 m c) (L5 m c) (L6 m c) := by
  rw [Cert.ReferenceIdeal.Stages.v48_eq]
  refine (W6_arr m ρ c 3).trans ((arr1 (V5 m ρ) c).trans ?_)
  show mm (a := 50000) (k := 128) (b := 128) (relu (addRow (n := 50000) (d := 128) (W5 m ρ c (Proc.devRef .tc main_v58)) (W5 m ρ c (Proc.devRef .tc main_v39))))
    (W5 m ρ c (Proc.devRef .tc main_v31)) = _
  rw [a5_v58 m ρ c, (keep5 m ρ c main_v39 (by decide) (by decide)).trans (a3_v39 m ρ c),
    (keep5 m ρ c main_v31 (by decide) (by decide)).trans (a3_v31 m ρ c)]

/-- After the second round of message passing. -/
theorem a7_v72 : W7 m ρ c (Proc.devRef .tc main_v72) = val_main_v61 (F := Ideal) (L0 m c) (L1 m c) (L4 m c) (L5 m c) (L6 m c) :=
  s_round2 (W6 m ρ c) (L0 m c) (L1 m c) (L4 m c) (L5 m c) (L6 m c) (a6_v59 m ρ c)
    ((keep6 m ρ c main_v3 (by decide) (by decide) (by decide)).trans (a3_v3 m ρ c))
    ((keep6 m ρ c main_v6 (by decide) (by decide) (by decide)).trans (a3_v6 m ρ c))
    ((keep6 m ρ c main_v29 (by decide) (by decide) (by decide)).trans (a3_v29 m ρ c))

/-- After the third region: the third layer's projection of the second layer's output. -/
theorem a8_v73 : W8 m ρ c (Proc.devRef .tc main_v73) = val_main_v66 (F := Ideal) (L0 m c) (L1 m c) (L4 m c) (L5 m c) (L6 m c) (L7 m c) (L8 m c) := by
  rw [Cert.ReferenceIdeal.Stages.v66_eq]
  refine (W8_arr m ρ c 3).trans ((arr2 (V7 m ρ) c).trans ?_)
  show mm (a := 50000) (k := 128) (b := 128) (relu (addRow (n := 50000) (d := 128) (W7 m ρ c (Proc.devRef .tc main_v72)) (W7 m ρ c (Proc.devRef .tc main_v40))))
    (W7 m ρ c (Proc.devRef .tc main_v32)) = _
  rw [a7_v72 m ρ c, (keep7 m ρ c main_v40 (by decide) (by decide) (by decide) (by decide)).trans (a3_v40 m ρ c),
    (keep7 m ρ c main_v32 (by decide) (by decide) (by decide) (by decide)).trans (a3_v32 m ρ c)]

/-- After the third round of message passing: the last aggregated table. -/
theorem a9_v86 : W9 m ρ c (Proc.devRef .tc main_v86) = val_main_v79 (F := Ideal) (L0 m c) (L1 m c) (L4 m c) (L5 m c) (L6 m c) (L7 m c) (L8 m c) :=
  s_round3 (W8 m ρ c) (L0 m c) (L1 m c) (L4 m c) (L5 m c) (L6 m c) (L7 m c) (L8 m c) (a8_v73 m ρ c)
    ((keep8 m ρ c main_v3 (by decide) (by decide) (by decide) (by decide) (by decide)).trans (a3_v3 m ρ c))
    ((keep8 m ρ c main_v6 (by decide) (by decide) (by decide) (by decide) (by decide)).trans (a3_v6 m ρ c))
    ((keep8 m ρ c main_v29 (by decide) (by decide) (by decide) (by decide) (by decide)).trans (a3_v29 m ρ c))

/-! ## The question branch -/

/-- After the fourth region: the question projection. -/
theorem a10_v87 : W10 m ρ c (Proc.devRef .tc main_v87) = val_main_v84 (F := Ideal) (L3 m c) (L10 m c) := by
  rw [Cert.ReferenceIdeal.Stages.v84_eq]
  refine (W10_arr m ρ c 2).trans ((arr3 (V9 m ρ) c).trans ?_)
  show mm (a := 64) (k := 768) (b := 128) (W9 m ρ c (Proc.devRef .tc main_arg3)) (W9 m ρ c (Proc.devRef .tc main_v33)) = _
  rw [(keep9 m ρ c main_arg3 (by decide) (by decide) (by decide) (by decide) (by decide) (by decide)).trans
      (launched3 m ρ c main_arg3 (by decide) (by decide) (by decide)),
    (keep9 m ρ c main_v33 (by decide) (by decide) (by decide) (by decide) (by decide) (by decide)).trans (a3_v33 m ρ c)]

/-- After the fifth region: the projected question table with its bias row, clamped. -/
theorem a11_v88 : W11 m ρ c (Proc.devRef .tc main_v88) = val_main_v88 (F := Ideal) (L3 m c) (L10 m c) (L11 m c) := by
  rw [Cert.ReferenceIdeal.Stages.v88_eq]
  refine (W11_arr m ρ c 2).trans ((arr4 (V10 m ρ) c).trans ?_)
  show relu (addRow (n := 64) (d := 128) (W10 m ρ c (Proc.devRef .tc main_v87)) (W10 m ρ c (Proc.devRef .tc main_v42))) = _
  rw [a10_v87 m ρ c,
    (keep10 m ρ c main_v42 (by decide) (by decide) (by decide) (by decide) (by decide) (by decide) (by decide)).trans (a3_v42 m ρ c)]

/-- The question rows gathered per node. -/
theorem a12_v95 : W12 m ρ c (Proc.devRef .tc main_v95) = val_main_v95 (F := Ideal) (L2 m c) (L3 m c) (L10 m c) (L11 m c) :=
  s_qrows (W11 m ρ c) (L2 m c) (L3 m c) (L10 m c) (L11 m c) (a11_v88 m ρ c)
    ((keep11 m ρ c main_arg2 (by decide) (by decide) (by decide) (by decide) (by decide) (by decide) (by decide) (by decide)).trans
      (launched3 m ρ c main_arg2 (by decide) (by decide) (by decide)))

/-! ## The result -/

/-- After the sixth region the result table holds the reference's result of the launched arguments. -/
theorem a13_v96 : W13 m ρ c (Proc.devRef .tc main_v96)
    = val_main_v105 (F := Ideal) (L0 m c) (L1 m c) (L2 m c) (L3 m c) (L4 m c) (L5 m c) (L6 m c) (L7 m c) (L8 m c) (L9 m c) (L10 m c) (L11 m c) (L12 m c) (L13 m c) (L14 m c) (L15 m c) := by
  rw [Cert.ReferenceIdeal.Stages.v105_eq (L0 m c) (L1 m c) (L2 m c) (L3 m c) (L4 m c) (L5 m c) (L6 m c) (L7 m c) (L8 m c) (L9 m c) (L10 m c) (L11 m c) (L12 m c) (L13 m c) (L14 m c) (L15 m c)
    slices_S256x128_S128x128_0_0 slices_S256x128_S128x128_128_0]
  refine (W13_arr m ρ c 8).trans ((arr5 (V12 m ρ) c).trans ?_)
  show tail (n := 50000) (W12 m ρ c (Proc.devRef .tc main_v86)) (W12 m ρ c (Proc.devRef .tc main_v41)) (W12 m ρ c (Proc.devRef .tc main_v95))
    (W12 m ρ c (Proc.devRef .tc main_v35)) (W12 m ρ c (Proc.devRef .tc main_v37)) (W12 m ρ c (Proc.devRef .tc main_v43))
    (W12 m ρ c (Proc.devRef .tc main_v38)) (W12 m ρ c (Proc.devRef .tc main_v44)) = _
  rw [(keep9to12 m ρ c main_v86 (by decide) (by decide) (by decide)).trans (a9_v86 m ρ c),
    (keep12 m ρ c main_v41 (by decide) (by decide) (by decide) (by decide) (by decide) (by decide) (by decide) (by decide) (by decide)).trans (a3_v41 m ρ c),
    a12_v95 m ρ c,
    (keep12 m ρ c main_v35 (by decide) (by decide) (by decide) (by decide) (by decide) (by decide) (by decide) (by decide) (by decide)).trans (a3_v35 m ρ c),
    (keep12 m ρ c main_v37 (by decide) (by decide) (by decide) (by decide) (by decide) (by decide) (by decide) (by decide) (by decide)).trans (a3_v37 m ρ c),
    (keep12 m ρ c main_v43 (by decide) (by decide) (by decide) (by decide) (by decide) (by decide) (by decide) (by decide) (by decide)).trans (a3_v43 m ρ c),
    (keep12 m ρ c main_v38 (by decide) (by decide) (by decide) (by decide) (by decide) (by decide) (by decide) (by decide) (by decide)).trans (a3_v38 m ρ c),
    (keep12 m ρ c main_v44 (by decide) (by decide) (by decide) (by decide) (by decide) (by decide) (by decide) (by decide) (by decide)).trans (a3_v44 m ρ c)]

end Cert.KernelIdeal.Whole

end
-- ==== Proof.lean ====
/-
  The claim: a three-layer graph convolution with a question-conditioned dense tail, computed two ways, agrees entry by
  entry on the extended reals.

  Both programs compute, for a node table `x`, an edge list (self loops appended) with symmetric in-degree weights, and
  weight tables and bias vectors:   h₀ = x;   hₗ₊₁ = relu (S (hₗ · Wₗ) + bₗ)   for l = 0, 1, 2   (S gathers rows along the
  edge sources, scales by the edge weight and sums into the edge targets);   q = relu (Q · F₀ + f₀) gathered per node;
  out = relu ([h₃ | q] · F₁ + f₁) · F₂ + f₂.   The reference spells every dense piece as a whole-table host operation.  The
  other program computes each projection and the whole dense tail in blocks of 5000 node rows, fusing each layer's bias row
  and clamp into the next projection and replacing the concatenation by two products with the halves of F₁.  Since every
  dense piece is row-local, the blocks written back tile the whole-table function (modules Region0 … Region5 over the
  payloads of Payloads); the sum over the 256 concatenated columns splits at 128 because addition of extended reals is
  commutative and associative (RefStages `mm_concat`), with no appeal to finiteness; a change of float format is the
  identity at the extended reals; and the host operations on the edge list and the three gather / scale / sum rounds are
  the same operations in both programs (Stretches).  Fold threads these through the program's thirteen segments; RunResult
  is the program's run read at its result.

  The three frames: the two kernel programs' are the generated frame certificates; the reference, a host program, has its
  run (RefRun), of which the frame is the part about the arguments.  The idealization rewrote nothing, so `preserves` is
  trivial.
-/
import proofs.«144733_j57853209477141_2_alg».proof.Defs
import proofs.«144733_j57853209477141_2_alg».proof.Proof.Gen.Kernel
import proofs.«144733_j57853209477141_2_alg».proof.Proof.Gen.Kernel.Skeleton
import proofs.«144733_j57853209477141_2_alg».proof.Proof.Gen.Kernel.Launch
import proofs.«144733_j57853209477141_2_alg».proof.Proof.Gen.Kernel.Points
import proofs.«144733_j57853209477141_2_alg».proof.Proof.Gen.Kernel.Frame
import proofs.«144733_j57853209477141_2_alg».proof.Proof.Gen.KernelIdeal
import proofs.«144733_j57853209477141_2_alg».proof.Proof.Gen.KernelIdeal.Skeleton
import proofs.«144733_j57853209477141_2_alg».proof.Proof.Gen.KernelIdeal.Launch
import proofs.«144733_j57853209477141_2_alg».proof.Proof.Gen.KernelIdeal.Points
import proofs.«144733_j57853209477141_2_alg».proof.Proof.Gen.KernelIdeal.Frame
import proofs.«144733_j57853209477141_2_alg».proof.Proof.Gen.ReferenceIdeal
import proofs.«144733_j57853209477141_2_alg».proof.Proof.Gen.Pre_finite_inputs
import proofs.«144733_j57853209477141_2_alg».proof.Proof.RunResult
import proofs.«144733_j57853209477141_2_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result table at the reference's function of the launched arguments: the block program by the
    fold through its segments, the reference by its run; the arguments agree by hypothesis. -/
theorem algebraic : Cert.algebraic_KernelIdeal_ReferenceIdeal := by
  intro m ρ m' ρ' _ hagree
  refine ⟨fun c => Cert.ReferenceIdeal.ReadP.val_main_v105 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Whole.a13_v96 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13, e14, e15⟩ := hagree c
    rw [Cert.ReferenceIdeal.ReadP.val_main_v105_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
